-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x48 : Shape := ⟨4, ![16, 256, 256, 48]⟩
abbrev S91x48 : Shape := ⟨2, ![91, 48]⟩
abbrev S_ : Shape := ⟨0, ![]⟩

class Facts : Prop where
  bcast_S_S16x256x256x48 : S_.BroadcastsInDim S16x256x256x48 (![] : Fin 0 → Fin S16x256x256x48.rank)
  reducesTo_S16x256x256x48_S_d0_1_2_3 : S16x256x256x48.ReducesTo [0, 1, 2, 3] S_
  h_S_ : 0 < S_.numel
  bcast_S_S91x48 : S_.BroadcastsInDim S91x48 (![] : Fin 0 → Fin S91x48.rank)
  reducesTo_S91x48_S_d0_1 : S91x48.ReducesTo [0, 1] S_

variable [Facts]

def fn {F : FTy → Type} [FloatOps F] (main_arg0 : FVec F S16x256x256x48 .f32) (main_arg1 : FVec F S91x48 .f32) : IVec S_ 1 :=
  let main_v0 : FVec F S16x256x256x48 .f32 := Host.absf main_arg0
  let main_cst : FVec F S_ .f32 := constant S_ .f32 0x7F800000#32
  let main_v1 : FVec F S16x256x256x48 .f32 := broadcastInDim S16x256x256x48 ![] bcast_S_S16x256x256x48 main_cst
  let main_v2 : IVec S16x256x256x48 1 := cmpf .olt main_v0 main_v1
  let main_c : IVec S_ 1 := constantI S_ 1 1#1
  let main_v3 : IVec S_ 1 := (fun x v => Host.reduce IntOp.andi x v reducesTo_S16x256x256x48_S_d0_1_2_3 h_S_) main_v2 main_c
  let main_v4 : FVec F S91x48 .f32 := Host.absf main_arg1
  let main_cst_0 : FVec F S_ .f32 := constant S_ .f32 0x7F800000#32
  let main_v5 : FVec F S91x48 .f32 := broadcastInDim S91x48 ![] bcast_S_S91x48 main_cst_0
  let main_v6 : IVec S91x48 1 := cmpf .olt main_v4 main_v5
  let main_c_1 : IVec S_ 1 := constantI S_ 1 1#1
  let main_v7 : IVec S_ 1 := (fun x v => Host.reduce IntOp.andi x v reducesTo_S91x48_S_d0_1 h_S_) main_v6 main_c_1
  let main_v8 : IVec S_ 1 := andi main_v3 main_v7
  main_v8
-- ==== Kernel.lean ====
abbrev S16x256x256x48 : Shape := ⟨4, ![16, 256, 256, 48]⟩
abbrev S91x48 : Shape := ⟨2, ![91, 48]⟩
abbrev S1048576x48 : Shape := ⟨2, ![1048576, 48]⟩
abbrev S8192x48 : Shape := ⟨2, ![8192, 48]⟩
abbrev S256x48 : Shape := ⟨2, ![256, 48]⟩
abbrev S1x48 : Shape := ⟨2, ![1, 48]⟩
abbrev S48 : Shape := ⟨1, ![48]⟩

abbrev nBuf : Space → Nat
  | .hbm => 5
  | .vmem => 5
  | .smem => 0
  | _ => 0

abbrev bufTy : (tb : Table) → Fin (tcTables nBuf tb) → BufTy
  | .hbm, ⟨0, _⟩ => ⟨S16x256x256x48, .f32⟩
  | .hbm, ⟨1, _⟩ => ⟨S91x48, .f32⟩
  | .hbm, ⟨2, _⟩ => ⟨S1048576x48, .f32⟩
  | .hbm, ⟨3, _⟩ => ⟨S1048576x48, .f32⟩
  | .hbm, ⟨4, _⟩ => ⟨S16x256x256x48, .f32⟩
  | .local _ .vmem, ⟨0, _⟩ => ⟨S8192x48, .f32⟩
  | .local _ .vmem, ⟨1, _⟩ => ⟨S8192x48, .f32⟩
  | .local _ .vmem, ⟨2, _⟩ => ⟨S91x48, .f32⟩
  | .local _ .vmem, ⟨3, _⟩ => ⟨S8192x48, .f32⟩
  | .local _ .vmem, ⟨4, _⟩ => ⟨S8192x48, .f32⟩
  | _, _ => ⟨S16x256x256x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c256_i32 : BitVec 32 := 256#32
  let v2 : BitVec 32 := Scalar.muli arg4 c256_i32
  v2
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c256_i32 : BitVec 32 := 256#32
  let v2 : BitVec 32 := Scalar.muli arg4 c256_i32
  let v3 : BitVec 32 := v2
  let v4 : Index := Scalar.indexCast v3
  let c0_2 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S91x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x256x256x48_S1048576x48 : S16x256x256x48.ShapeCasts S1048576x48
  inb_S91x48_S91x48_0_0 : ∀ a, (![0, 0] : Fin 2 → Nat) a + S91x48.size a ≤ S91x48.size a
  h_S91x48 : 0 < S91x48.numel
  h_S256x48 : 0 < S256x48.numel
  shapeCasts_S256x48_S256x48 : S256x48.ShapeCasts S256x48
  natLt_1_32 : 1 < 32
  slices_S91x48_o0_0_S1x48 : S91x48.Slices ![0, 0] S1x48
  shapeCasts_S1x48_S48 : S1x48.ShapeCasts S48
  shapeCasts_S48_S1x48 : S48.ShapeCasts S1x48
  broadcasts_S1x48_S256x48 : S1x48.Broadcasts S256x48
  slices_S91x48_o1_0_S1x48 : S91x48.Slices ![1, 0] S1x48
  slices_S91x48_o2_0_S1x48 : S91x48.Slices ![2, 0] S1x48
  slices_S91x48_o3_0_S1x48 : S91x48.Slices ![3, 0] S1x48
  slices_S91x48_o4_0_S1x48 : S91x48.Slices ![4, 0] S1x48
  slices_S91x48_o5_0_S1x48 : S91x48.Slices ![5, 0] S1x48
  slices_S91x48_o6_0_S1x48 : S91x48.Slices ![6, 0] S1x48
  slices_S91x48_o7_0_S1x48 : S91x48.Slices ![7, 0] S1x48
  slices_S91x48_o8_0_S1x48 : S91x48.Slices ![8, 0] S1x48
  slices_S91x48_o9_0_S1x48 : S91x48.Slices ![9, 0] S1x48
  slices_S91x48_o10_0_S1x48 : S91x48.Slices ![10, 0] S1x48
  slices_S91x48_o11_0_S1x48 : S91x48.Slices ![11, 0] S1x48
  slices_S91x48_o12_0_S1x48 : S91x48.Slices ![12, 0] S1x48
  slices_S91x48_o13_0_S1x48 : S91x48.Slices ![13, 0] S1x48
  slices_S91x48_o14_0_S1x48 : S91x48.Slices ![14, 0] S1x48
  slices_S91x48_o15_0_S1x48 : S91x48.Slices ![15, 0] S1x48
  slices_S91x48_o16_0_S1x48 : S91x48.Slices ![16, 0] S1x48
  slices_S91x48_o17_0_S1x48 : S91x48.Slices ![17, 0] S1x48
  slices_S91x48_o18_0_S1x48 : S91x48.Slices ![18, 0] S1x48
  slices_S91x48_o19_0_S1x48 : S91x48.Slices ![19, 0] S1x48
  slices_S91x48_o20_0_S1x48 : S91x48.Slices ![20, 0] S1x48
  slices_S91x48_o21_0_S1x48 : S91x48.Slices ![21, 0] S1x48
  slices_S91x48_o22_0_S1x48 : S91x48.Slices ![22, 0] S1x48
  slices_S91x48_o23_0_S1x48 : S91x48.Slices ![23, 0] S1x48
  slices_S91x48_o24_0_S1x48 : S91x48.Slices ![24, 0] S1x48
  slices_S91x48_o25_0_S1x48 : S91x48.Slices ![25, 0] S1x48
  slices_S91x48_o26_0_S1x48 : S91x48.Slices ![26, 0] S1x48
  slices_S91x48_o27_0_S1x48 : S91x48.Slices ![27, 0] S1x48
  slices_S91x48_o28_0_S1x48 : S91x48.Slices ![28, 0] S1x48
  slices_S91x48_o29_0_S1x48 : S91x48.Slices ![29, 0] S1x48
  slices_S91x48_o30_0_S1x48 : S91x48.Slices ![30, 0] S1x48
  slices_S91x48_o31_0_S1x48 : S91x48.Slices ![31, 0] S1x48
  slices_S91x48_o32_0_S1x48 : S91x48.Slices ![32, 0] S1x48
  slices_S91x48_o33_0_S1x48 : S91x48.Slices ![33, 0] S1x48
  slices_S91x48_o34_0_S1x48 : S91x48.Slices ![34, 0] S1x48
  slices_S91x48_o35_0_S1x48 : S91x48.Slices ![35, 0] S1x48
  slices_S91x48_o36_0_S1x48 : S91x48.Slices ![36, 0] S1x48
  slices_S91x48_o37_0_S1x48 : S91x48.Slices ![37, 0] S1x48
  slices_S91x48_o38_0_S1x48 : S91x48.Slices ![38, 0] S1x48
  slices_S91x48_o39_0_S1x48 : S91x48.Slices ![39, 0] S1x48
  slices_S91x48_o40_0_S1x48 : S91x48.Slices ![40, 0] S1x48
  slices_S91x48_o41_0_S1x48 : S91x48.Slices ![41, 0] S1x48
  slices_S91x48_o42_0_S1x48 : S91x48.Slices ![42, 0] S1x48
  slices_S91x48_o43_0_S1x48 : S91x48.Slices ![43, 0] S1x48
  slices_S91x48_o44_0_S1x48 : S91x48.Slices ![44, 0] S1x48
  slices_S91x48_o45_0_S1x48 : S91x48.Slices ![45, 0] S1x48
  slices_S91x48_o46_0_S1x48 : S91x48.Slices ![46, 0] S1x48
  slices_S91x48_o47_0_S1x48 : S91x48.Slices ![47, 0] S1x48
  slices_S91x48_o48_0_S1x48 : S91x48.Slices ![48, 0] S1x48
  slices_S91x48_o49_0_S1x48 : S91x48.Slices ![49, 0] S1x48
  slices_S91x48_o50_0_S1x48 : S91x48.Slices ![50, 0] S1x48
  slices_S91x48_o51_0_S1x48 : S91x48.Slices ![51, 0] S1x48
  slices_S91x48_o52_0_S1x48 : S91x48.Slices ![52, 0] S1x48
  slices_S91x48_o53_0_S1x48 : S91x48.Slices ![53, 0] S1x48
  slices_S91x48_o54_0_S1x48 : S91x48.Slices ![54, 0] S1x48
  slices_S91x48_o55_0_S1x48 : S91x48.Slices ![55, 0] S1x48
  slices_S91x48_o56_0_S1x48 : S91x48.Slices ![56, 0] S1x48
  slices_S91x48_o57_0_S1x48 : S91x48.Slices ![57, 0] S1x48
  slices_S91x48_o58_0_S1x48 : S91x48.Slices ![58, 0] S1x48
  slices_S91x48_o59_0_S1x48 : S91x48.Slices ![59, 0] S1x48
  slices_S91x48_o60_0_S1x48 : S91x48.Slices ![60, 0] S1x48
  slices_S91x48_o61_0_S1x48 : S91x48.Slices ![61, 0] S1x48
  slices_S91x48_o62_0_S1x48 : S91x48.Slices ![62, 0] S1x48
  slices_S91x48_o63_0_S1x48 : S91x48.Slices ![63, 0] S1x48
  slices_S91x48_o64_0_S1x48 : S91x48.Slices ![64, 0] S1x48
  slices_S91x48_o65_0_S1x48 : S91x48.Slices ![65, 0] S1x48
  slices_S91x48_o66_0_S1x48 : S91x48.Slices ![66, 0] S1x48
  slices_S91x48_o67_0_S1x48 : S91x48.Slices ![67, 0] S1x48
  slices_S91x48_o68_0_S1x48 : S91x48.Slices ![68, 0] S1x48
  slices_S91x48_o69_0_S1x48 : S91x48.Slices ![69, 0] S1x48
  slices_S91x48_o70_0_S1x48 : S91x48.Slices ![70, 0] S1x48
  slices_S91x48_o71_0_S1x48 : S91x48.Slices ![71, 0] S1x48
  slices_S91x48_o72_0_S1x48 : S91x48.Slices ![72, 0] S1x48
  slices_S91x48_o73_0_S1x48 : S91x48.Slices ![73, 0] S1x48
  slices_S91x48_o74_0_S1x48 : S91x48.Slices ![74, 0] S1x48
  slices_S91x48_o75_0_S1x48 : S91x48.Slices ![75, 0] S1x48
  slices_S91x48_o76_0_S1x48 : S91x48.Slices ![76, 0] S1x48
  slices_S91x48_o77_0_S1x48 : S91x48.Slices ![77, 0] S1x48
  slices_S91x48_o78_0_S1x48 : S91x48.Slices ![78, 0] S1x48
  slices_S91x48_o79_0_S1x48 : S91x48.Slices ![79, 0] S1x48
  slices_S91x48_o80_0_S1x48 : S91x48.Slices ![80, 0] S1x48
  slices_S91x48_o81_0_S1x48 : S91x48.Slices ![81, 0] S1x48
  slices_S91x48_o82_0_S1x48 : S91x48.Slices ![82, 0] S1x48
  slices_S91x48_o83_0_S1x48 : S91x48.Slices ![83, 0] S1x48
  slices_S91x48_o84_0_S1x48 : S91x48.Slices ![84, 0] S1x48
  slices_S91x48_o85_0_S1x48 : S91x48.Slices ![85, 0] S1x48
  slices_S91x48_o86_0_S1x48 : S91x48.Slices ![86, 0] S1x48
  slices_S91x48_o87_0_S1x48 : S91x48.Slices ![87, 0] S1x48
  slices_S91x48_o88_0_S1x48 : S91x48.Slices ![88, 0] S1x48
  slices_S91x48_o89_0_S1x48 : S91x48.Slices ![89, 0] S1x48
  slices_S91x48_o90_0_S1x48 : S91x48.Slices ![90, 0] S1x48
  shapeCasts_S1048576x48_S16x256x256x48 : S1048576x48.ShapeCasts S16x256x256x48
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S256x48.size a ≤ S8192x48.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x48.size a ≤ S1048576x48.size a
  hwx0_0 : ∀ i : grid0.Coords, EltTy.bits .f32 = 32 ∨ (Rect.block (s := S1048576x48) S8192x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S91x48.size a ≤ S91x48.size a
  hwx0_1 : ∀ i : grid0.Coords, EltTy.bits .f32 = 32 ∨ (Rect.block (s := S91x48) S91x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x48.size a ≤ S1048576x48.size a
  hwx0_2 : ∀ i : grid0.Coords, EltTy.bits .f32 = 32 ∨ (Rect.block (s := S1048576x48) S8192x48.size (cc0_transform_2 i) (hinb0_2 i)).WholeWords (EltTy.packing .f32)

variable [Facts₀]

abbrev win0_0 : Pipeline.Window sig grid0 :=
  Pipeline.Window.ofSpec (Memref.whole main_v0) S8192x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S91x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8192x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x256x48 : Shape := ⟨4, ![16, 256, 256, 48]⟩
abbrev S91x48 : Shape := ⟨2, ![91, 48]⟩
abbrev S1048576x48 : Shape := ⟨2, ![1048576, 48]⟩
abbrev S_ : Shape := ⟨0, ![]⟩
abbrev S1048576x48x1 : Shape := ⟨3, ![1048576, 48, 1]⟩
abbrev S1 : Shape := ⟨1, ![1]⟩
abbrev S1x1x1 : Shape := ⟨3, ![1, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S16x256x256x48, .f32⟩
  | .hbm, ⟨1, _⟩ => ⟨S91x48, .f32⟩
  | .hbm, ⟨2, _⟩ => ⟨S1048576x48, .f32⟩
  | .hbm, ⟨3, _⟩ => ⟨S_, .f32⟩
  | .hbm, ⟨4, _⟩ => ⟨S1048576x48, .f32⟩
  | .hbm, ⟨5, _⟩ => ⟨S1048576x48, .f32⟩
  | .hbm, ⟨6, _⟩ => ⟨S_, .f32⟩
  | .hbm, ⟨7, _⟩ => ⟨S1048576x48, .f32⟩
  | .hbm, ⟨8, _⟩ => ⟨S1048576x48, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1048576x48, .f32⟩
  | .hbm, ⟨13, _⟩ => ⟨S1048576x48, .f32⟩
  | .hbm, ⟨14, _⟩ => ⟨S_, .f32⟩
  | .hbm, ⟨15, _⟩ => ⟨S1048576x48, .f32⟩
  | .hbm, ⟨16, _⟩ => ⟨S1048576x48, .f32⟩
  | .hbm, ⟨17, _⟩ => ⟨S1048576x48, .f32⟩
  | .hbm, ⟨18, _⟩ => ⟨S1048576x48, .f32⟩
  | .hbm, ⟨19, _⟩ => ⟨S1048576x48, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1048576x48, .i32⟩
  | .hbm, ⟨24, _⟩ => ⟨S1048576x48, .i32⟩
  | .hbm, ⟨25, _⟩ => ⟨S_, .i32⟩
  | .hbm, ⟨26, _⟩ => ⟨S1048576x48, .i32⟩
  | .hbm, ⟨27, _⟩ => ⟨S1048576x48, .i32⟩
  | .hbm, ⟨28, _⟩ => ⟨S_, .i32⟩
  | .hbm, ⟨29, _⟩ => ⟨S1048576x48, .i32⟩
  | .hbm, ⟨30, _⟩ => ⟨S1048576x48, .i32⟩
  | .hbm, ⟨31, _⟩ => ⟨S_, .i32⟩
  | .hbm, ⟨32, _⟩ => ⟨S1048576x48, .i32⟩
  | .hbm, ⟨33, _⟩ => ⟨S1048576x48, .i1⟩
  | .hbm, ⟨34, _⟩ => ⟨S_, .i32⟩
  | .hbm, ⟨35, _⟩ => ⟨S1048576x48, .i32⟩
  | .hbm, ⟨36, _⟩ => ⟨S1048576x48, .i32⟩
  | .hbm, ⟨37, _⟩ => ⟨S1048576x48, .i32⟩
  | .hbm, ⟨38, _⟩ => ⟨S1048576x48x1, .i32⟩
  | .hbm, ⟨39, _⟩ => ⟨S1, .i32⟩
  | .hbm, ⟨40, _⟩ => ⟨S_, .i32⟩
  | .hbm, ⟨41, _⟩ => ⟨S1048576x48x1, .i32⟩
  | .hbm, ⟨42, _⟩ => ⟨S1048576x48x1, .i1⟩
  | .hbm, ⟨43, _⟩ => ⟨S1x1x1, .i32⟩
  | .hbm, ⟨44, _⟩ => ⟨S1048576x48x1, .i32⟩
  | .hbm, ⟨45, _⟩ => ⟨S1048576x48x1, .i1⟩
  | .hbm, ⟨46, _⟩ => ⟨S1048576x48x1, .i1⟩
  | .hbm, ⟨47, _⟩ => ⟨S_, .i1⟩
  | .hbm, ⟨48, _⟩ => ⟨S1048576x48, .i1⟩
  | .hbm, ⟨49, _⟩ => ⟨S1048576x48, .f32⟩
  | .hbm, ⟨50, _⟩ => ⟨S_, .f32⟩
  | .hbm, ⟨51, _⟩ => ⟨S1048576x48, .f32⟩
  | .hbm, ⟨52, _⟩ => ⟨S1048576x48, .f32⟩
  | .hbm, ⟨53, _⟩ => ⟨S_, .i32⟩
  | .hbm, ⟨54, _⟩ => ⟨S1048576x48, .i32⟩
  | .hbm, ⟨55, _⟩ => ⟨S1048576x48, .i1⟩
  | .hbm, ⟨56, _⟩ => ⟨S_, .i32⟩
  | .hbm, ⟨57, _⟩ => ⟨S1048576x48, .i32⟩
  | .hbm, ⟨58, _⟩ => ⟨S1048576x48, .i32⟩
  | .hbm, ⟨59, _⟩ => ⟨S1048576x48, .i32⟩
  | .hbm, ⟨60, _⟩ => ⟨S1048576x48x1, .i32⟩
  | .hbm, ⟨61, _⟩ => ⟨S1, .i32⟩
  | .hbm, ⟨62, _⟩ => ⟨S_, .i32⟩
  | .hbm, ⟨63, _⟩ => ⟨S1048576x48x1, .i32⟩
  | .hbm, ⟨64, _⟩ => ⟨S1048576x48x1, .i1⟩
  | .hbm, ⟨65, _⟩ => ⟨S1x1x1, .i32⟩
  | .hbm, ⟨66, _⟩ => ⟨S1048576x48x1, .i32⟩
  | .hbm, ⟨67, _⟩ => ⟨S1048576x48x1, .i1⟩
  | .hbm, ⟨68, _⟩ => ⟨S1048576x48x1, .i1⟩
  | .hbm, ⟨69, _⟩ => ⟨S_, .i1⟩
  | .hbm, ⟨70, _⟩ => ⟨S1048576x48, .i1⟩
  | .hbm, ⟨71, _⟩ => ⟨S1048576x48, .f32⟩
  | .hbm, ⟨72, _⟩ => ⟨S_, .f32⟩
  | .hbm, ⟨73, _⟩ => ⟨S1048576x48, .f32⟩
  | .hbm, ⟨74, _⟩ => ⟨S1048576x48, .f32⟩
  | .hbm, ⟨75, _⟩ => ⟨S_, .f32⟩
  | .hbm, ⟨76, _⟩ => ⟨S1048576x48, .f32⟩
  | .hbm, ⟨77, _⟩ => ⟨S1048576x48, .f32⟩
  | .hbm, ⟨78, _⟩ => ⟨S1048576x48, .f32⟩
  | .hbm, ⟨79, _⟩ => ⟨S1048576x48, .f32⟩
  | .hbm, ⟨80, _⟩ => ⟨S1048576x48, .f32⟩
  | .hbm, ⟨81, _⟩ => ⟨S16x256x256x48, .f32⟩
  | _, _ => ⟨S16x256x256x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_c_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_v11 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v12 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_cst : Ref sig .tc := ⟨.hbm, 72, rfl⟩
abbrev main_call3_v14 : Ref sig .tc := ⟨.hbm, 73, rfl⟩
abbrev main_v13 : Ref sig .tc := ⟨.hbm, 74, rfl⟩
abbrev main_cst_5 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩

abbrev nD : Nat := 1
abbrev τ : Topo := Topo.v7x

variable {F : FTy → Type} [FloatOps F]

class Facts₀ : Prop where
  shapeCasts_S16x256x256x48_S1048576x48 : S16x256x256x48.ShapeCasts S1048576x48
  bcast_S_S1048576x48 : S_.BroadcastsInDim S1048576x48 (![] : Fin 0 → Fin S1048576x48.rank)
  shapeCasts_S1048576x48_S1048576x48x1 : S1048576x48.ShapeCasts S1048576x48x1
  bcast_S_S1048576x48x1 : S_.BroadcastsInDim S1048576x48x1 (![] : Fin 0 → Fin S1048576x48x1.rank)
  bcast_S1_S1x1x1_2 : S1.BroadcastsInDim S1x1x1 (![2] : Fin 1 → Fin S1x1x1.rank)
  bcast_S1x1x1_S1048576x48x1_0_1_2 : S1x1x1.BroadcastsInDim S1048576x48x1 (![0, 1, 2] : Fin 3 → Fin S1048576x48x1.rank)
  reducesTo_S1048576x48x1_S1048576x48_d2 : S1048576x48x1.ReducesTo [2] S1048576x48
  h_S_ : 0 < S_.numel
  shapeCasts_S1048576x48_S16x256x256x48 : S1048576x48.ShapeCasts S16x256x256x48
  gather_S91x48_S1048576x48x1_S1048576x48_n_0_1_1_0_2_11_wf : GatherDims.WF S91x48 S1048576x48x1 S1048576x48 [] [0] [1] [0] [1] 2 ![1, 1]

variable [Facts₀]

def gather_S91x48_S1048576x48x1_S1048576x48_n_0_1_1_0_2_11 : GatherDims S91x48 S1048576x48x1 S1048576x48 where
  offsetDims := []
  collapsedSliceDims := [0]
  operandBatchingDims := [1]
  startIndicesBatchingDims := [1]
  startIndexMap := [0]
  indexVectorDim := 2
  sliceSizes := ![1, 1]
  wf := gather_S91x48_S1048576x48x1_S1048576x48_n_0_1_1_0_2_11_wf

class Facts : Prop extends Facts₀ where

variable [Facts]
-- ==== Proof.PayDef.lean ====
/-
  The value one trip of the body's loop stores, as ONE function of the knot table `v0` and the trip's 256 rows `v5`
  of the input block: the body's 1,200-odd vector operations composed in the order the kernel applies them — the knot
  coordinate's fractional part, the clamped knot number and the complementary weight first, then, knot by knot, the
  accumulator plus that knot's weight (the indicator of "this is the lower knot" times the lower weight plus the
  indicator of "the previous one was" times the upper weight) times the knot's row of the table.
-/
import proofs.«148370_j48223892799740_2_alg».proof.Proof.Gen.KernelIdeal.Skeleton

noncomputable section

namespace Cert.KernelIdeal.Pay

open Idealize.ShloMosaic Cert.KernelIdeal Cert.KernelIdeal.Gen

variable {F : FTy → Type} [FloatOps F]

/-- What one trip stores: the body's operations from the trip's rows `v5` and the knot table `v0` to the stored vector. -/
def tripPay (v0 : Vec F S91x48 .f32) (v5 : Vec F S256x48 .f32) : FVec F S256x48 .f32 :=
  let v16 := k0_pay4 v5
  let v21 := k0_pay5 v5
  let v23 := k0_pay6 v5
  let v38 := k0_pay8 v0 v5
  let v42 := k0_pay9 v5
  let v45 := k0_pay10 v5
  let v47 := k0_pay11 v0
  let v94 := k0_pay12 (F := F) v21
  let v103 := k0_pay13 v0 v16 v21 v23 v38 v42 v45 v47
  let v146 := k0_pay14 (F := F) v21
  let v155 := k0_pay15 v0 v16 v21 v23 v94 v103
  let v158 := k0_pay16 v21
  let v207 := k0_pay18 v0 v16 v21 v23 v146 v155 v158
  let v211 := k0_pay19 (F := F) v21
  let v214 := k0_pay20 v16 v21 v23
  let v259 := k0_pay22 v0 v16 v21 v23 v207 v211 v214
  let v263 := k0_pay23 (F := F) v21
  let v266 := k0_pay24 v16 v21 v23
  let v270 := k0_pay25 v0
  let v315 := k0_pay26 (F := F) v21
  let v324 := k0_pay27 v0 v16 v21 v23 v259 v263 v266 v270
  let v325 := k0_pay28
  let v367 := k0_pay29 (F := F) v21
  let v376 := k0_pay30 v0 v16 v21 v23 v315 v324 v325
  let v380 := k0_pay31 (F := F) v21
  let v381 := k0_pay32 v21 v23
  let v428 := k0_pay34 v0 v16 v21 v23 v367 v376 v380 v381
  let v432 := k0_pay35 (F := F) v21
  let v435 := k0_pay36 v16 v21 v23
  let v437 := k0_pay37 v0
  let v484 := k0_pay38 (F := F) v21
  let v493 := k0_pay39 v0 v16 v21 v23 v428 v432 v435 v437
  let v536 := k0_pay40 (F := F) v21
  let v545 := k0_pay41 v0 v16 v21 v23 v484 v493
  let v548 := k0_pay42 v21
  let v597 := k0_pay44 v0 v16 v21 v23 v536 v545 v548
  let v601 := k0_pay45 (F := F) v21
  let v604 := k0_pay46 v16 v21 v23
  let v649 := k0_pay48 v0 v16 v21 v23 v597 v601 v604
  let v653 := k0_pay49 (F := F) v21
  let v656 := k0_pay50 v16 v21 v23
  let v660 := k0_pay51 v0
  let v705 := k0_pay52 (F := F) v21
  let v714 := k0_pay53 v0 v16 v21 v23 v649 v653 v656 v660
  let v715 := k0_pay54
  let v757 := k0_pay55 (F := F) v21
  let v766 := k0_pay56 v0 v16 v21 v23 v705 v714 v715
  let v770 := k0_pay57 (F := F) v21
  let v771 := k0_pay58 v21 v23
  let v818 := k0_pay60 v0 v16 v21 v23 v757 v766 v770 v771
  let v822 := k0_pay61 (F := F) v21
  let v825 := k0_pay62 v16 v21 v23
  let v827 := k0_pay63 v0
  let v874 := k0_pay64 (F := F) v21
  let v883 := k0_pay65 v0 v16 v21 v23 v818 v822 v825 v827
  let v926 := k0_pay66 (F := F) v21
  let v935 := k0_pay67 v0 v16 v21 v23 v874 v883
  let v938 := k0_pay68 v21
  let v987 := k0_pay70 v0 v16 v21 v23 v926 v935 v938
  let v991 := k0_pay71 (F := F) v21
  let v994 := k0_pay72 v16 v21 v23
  let v1039 := k0_pay74 v0 v16 v21 v23 v987 v991 v994
  let v1043 := k0_pay75 (F := F) v21
  let v1046 := k0_pay76 v16 v21 v23
  let v1050 := k0_pay77 v0
  let v1095 := k0_pay78 (F := F) v21
  let v1104 := k0_pay79 v0 v16 v21 v23 v1039 v1043 v1046 v1050
  let v1105 := k0_pay80
  let v1147 := k0_pay81 (F := F) v21
  let v1156 := k0_pay82 v0 v16 v21 v23 v1095 v1104 v1105
  let v1160 := k0_pay83 (F := F) v21
  let v1161 := k0_pay84 v21 v23
  let v1186 := k0_pay85 (F := F) v21
  let v1195 := k0_pay86 v0 v16 v21 v23 v1147 v1156 v1160 v1161
  let v1197 := k0_pay87 v21
  k0_pay1 v0 v16 v23 v1186 v1195 v1197

end Cert.KernelIdeal.Pay

end
-- ==== Proof.KernelPieces.lean ====
/-
  What the kernel body leaves in the output block, read off its run: the loop's 32 trips each store one slab of 256
  rows, at row offset 256·k, holding `tripPay` of the knot table and of the same 256 rows of the input block.
-/
import proofs.«148370_j48223892799740_2_alg».proof.Proof.Gen.KernelIdeal.Frame
import proofs.«148370_j48223892799740_2_alg».proof.Proof.PayDef
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces

open Cert.KernelIdeal Cert.KernelIdeal.Gen Cert.KernelIdeal.Pay

variable {F : FTy → Type} [FloatOps F]

/-- Trip `k`'s one piece: the slab of rows `256·k … 256·k + 255`, holding `tripPay` of the table and of those rows of
    the input block. -/
theorem tripL_eq (𝒱 : Variants) (c : Dev nD) (bd : Option 𝒱.V) (i : grid0.Coords) (arg1 : Memref sig .tc .vmem S8192x48 .f32) (harg1 : arg1.IsWhole) (arg2 : Memref sig .tc .vmem S91x48 .f32) (harg2 : arg2.IsWhole) (arg3 : Memref sig .tc .vmem S8192x48 .f32) (harg3 : arg3.IsWhole) (v0 : Vec F S91x48 .f32) (X_arg1 : BufTy.Contents (Elt F) arg1.view.ty) (k : Fin k0_t1_loop.trips) :
    tripL_k0_t1 (F := F) 𝒱 c bd i arg1 harg1 arg2 harg2 arg3 harg3 v0 X_arg1 k
      = [⟨Rect.unit (s := S8192x48) (k0_off1 k) S256x48.size (k0_off1_inb k),
          tripPay v0 (View.readAt (Elt F) arg1.view (Rect.unit (s := S8192x48) (k0_off1 k) S256x48.size (k0_off1_inb k)).toLoadRect X_arg1)⟩] := by
  unfold tripL_k0_t1 trip_k0_t1
  dsimp only
  sl_unfold_run_names
  rfl

/-- The run's pieces are the trips', last first. -/
theorem run_pieces (c : Dev nD) (i : grid0.Coords) (arg1 : Memref sig .tc .vmem S8192x48 .f32) (harg1 : arg1.IsWhole) (arg2 : Memref sig .tc .vmem S91x48 .f32) (harg2 : arg2.IsWhole) (arg3 : Memref sig .tc .vmem S8192x48 .f32) (harg3 : arg3.IsWhole)
    (x0 : Vec F S8192x48 .f32) (x1 : Vec F S91x48 .f32) :
    (kernelRun0_A c i arg1 harg1 arg2 harg2 arg3 harg3 x0 x1).1
      = pb_k0_t1 Variants.none c none i arg1 harg1 arg2 harg2 arg3 harg3
          (View.readAt (Elt F) arg2.view (Rect.unit (s := S91x48) ![0, 0] S91x48.size inb_S91x48_S91x48_0_0).toLoadRect (harg2.unread x1))
          (harg1.unread x0) k0_t1_loop.trips := by
  unfold kernelRun0_A
  dsimp only

end Cert.KernelIdeal.Pieces

end
-- ==== Proof.Spec.lean ====
/-
  The piecewise-linear interpolation both programs compute, on one element.

  An input `x` is moved to knot coordinates `pos x = min c₈₉ (max cε ((x − c₋₃) / c_w))` (the four constants are the
  programs' own f32 literals, read exactly), split into its integer part `flo x = ⌊pos x⌋` and the remainder
  `frac x = pos x − flo x`; the knot number is the integer part converted to a 32-bit word and clamped to 0 … 89
  (`knot x`). The result is the convex combination of the two neighbouring knot values of the element's channel,
  `Y(knot) · (1 − frac) + frac · Y(knot + 1)` (`val x Y`, `Y` the channel's column of the knot table).
  The clamp makes the knot number a natural number below 90 whatever the conversion gave (`knot_range`), so both rows
  exist in the 91-row table (`row_knot`, `row_knot_succ`).
-/
import Idealize.ShloMosaic.PureOps.Ideal

noncomputable section

namespace Cert.Spline

open Idealize.ShloMosaic

/-- The knot coordinate of an input: shifted by the left end of the range, divided by the knot spacing, clipped. -/
def pos (x : EReal) : EReal :=
  min (Ideal.ofBits .f32 0x42B3FFFF#32)
    (max (Ideal.ofBits .f32 0x3727C5AC#32) (Ideal.div (x - Ideal.ofBits .f32 0xC0400000#32) (Ideal.ofBits .f32 0x3D888889#32)))

/-- Its integer part. -/
def flo (x : EReal) : EReal := Ideal.liftRound Int.floor (pos x)

/-- Its fractional part: the weight of the upper knot. -/
def frac (x : EReal) : EReal := pos x - flo x

/-- The weight of the lower knot. -/
def cofrac (x : EReal) : EReal := Ideal.ofBits .f32 0x3F800000#32 - frac x

/-- The lower knot's number as a word: the integer part converted, clamped to 0 … 89. -/
def knot (x : EReal) : BitVec 32 := IntOp.minsi 89#32 (IntOp.maxsi 0#32 (Ideal.fptosi 32 (flo x)))

/-- The table row a word names: read signed, clamped into the table's 91 rows. -/
def row (w : BitVec 32) : Fin 91 := ⟨min w.toInt.toNat 90, by omega⟩

/-- The interpolated value of input `x` against one channel's column `Y` of the knot table. -/
def val (x : EReal) (Y : Fin 91 → EReal) : EReal :=
  Y (row (knot x)) * cofrac x + frac x * Y (row (IntOp.addi (knot x) 1#32))

/-- A word clamped to 0 … 89 (signed) is a natural number below 90. -/
theorem clamp_range (w : BitVec 32) : ∃ i : Nat, i < 90 ∧ IntOp.minsi 89#32 (IntOp.maxsi 0#32 w) = BitVec.ofNat 32 i := by
  unfold IntOp.minsi IntOp.maxsi
  by_cases h1 : w.slt 0#32 = true
  · rw [if_pos h1]
    exact ⟨0, by omega, by decide⟩
  · rw [if_neg h1]
    by_cases h2 : (89#32 : BitVec 32).slt w = true
    · rw [if_pos h2]; exact ⟨89, by omega, rfl⟩
    · rw [if_neg h2]
      refine ⟨w.toNat, ?_, by simp⟩
      simp only [BitVec.slt, decide_eq_true_eq, not_lt] at h1 h2
      have h0 : (0#32 : BitVec 32).toInt = 0 := by decide
      have h89 : (89#32 : BitVec 32).toInt = 89 := by decide
      rw [h0] at h1; rw [h89] at h2
      rw [BitVec.toInt_eq_toNat_cond w] at h1 h2
      have := w.isLt
      split at h1 <;> omega

/-- The knot number is a natural number below 90. -/
theorem knot_range (x : EReal) : ∃ i : Nat, i < 90 ∧ knot x = BitVec.ofNat 32 i := clamp_range _

/-- The row named by a natural number below 91 is that row. -/
theorem row_ofNat (i : Nat) (hi : i < 91) : row (BitVec.ofNat 32 i) = ⟨i, hi⟩ := by
  unfold row
  refine Fin.ext ?_
  show min (BitVec.ofNat 32 i).toInt.toNat 90 = i
  have h : (BitVec.ofNat 32 i).toInt = (i : Int) := by
    rw [BitVec.toInt_eq_toNat_cond, BitVec.toNat_ofNat]
    have : i % 2 ^ 32 = i := Nat.mod_eq_of_lt (by omega)
    rw [this]; split <;> omega
  rw [h]; omega

/-- The row after the one named by a natural number below 90. -/
theorem row_ofNat_succ (i : Nat) (hi : i < 90) : row (IntOp.addi (BitVec.ofNat 32 i) 1#32) = ⟨i + 1, by omega⟩ := by
  have : IntOp.addi (BitVec.ofNat 32 i) 1#32 = BitVec.ofNat 32 (i + 1) := by
    unfold IntOp.addi
    apply BitVec.eq_of_toNat_eq
    simp [BitVec.toNat_add, BitVec.toNat_ofNat]
  rw [this]; exact row_ofNat (i + 1) (by omega)

end Cert.Spline

end
-- ==== Proof.PayValue.lean ====
/-
  The value one trip of the kernel's loop stores, read at one element, is the interpolation formula.

  The body accumulates, knot by knot, (the 0/1 weight of "the knot word is k" times the lower weight plus the weight of
  "the knot word is k − 1" times the upper weight) times row k of the knot table. Read at one element this is a scalar
  recurrence (`acc`); when the knot word is a number i below 90 only the steps k = i and k = i + 1 add anything, and
  the sum is lower weight · Y i + upper weight · Y (i + 1) (`acc_ofNat`). On the extended reals this needs only that
  0 and 1 are absorbing and neutral for the product and 0 neutral for the sum: no distributivity, no finiteness.
-/
import proofs.«148370_j48223892799740_2_alg».proof.Proof.PayDef
import proofs.«148370_j48223892799740_2_alg».proof.Proof.Spec
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-! ## The scalar recurrence -/

/-- The zero the accumulator and the first "previous" weight start from: the f32 word of all zeros, read exactly. -/
def z0 : EReal := Ideal.ofBits .f32 0x00000000#32

theorem z0_eq : z0 = 0 := by simp [z0, Ideal.ofBits, Ideal.ieee]

/-- The weight "the word `w` is the number `k`": the one-bit comparison widened to 32 bits, read signed, as a real. -/
def ind (w : BitVec 32) (k : Nat) : EReal :=
  ((((IntOp.cmpi .eq w (BitVec.ofNat 32 k)).setWidth 32).toInt : ℝ) : EReal)

/-- The weight of the step before: zero at the first step. -/
def indPrev (w : BitVec 32) : Nat → EReal
  | 0 => z0
  | k + 1 => ind w k

/-- The accumulator after `n` knots: each knot `k` adds (its weight times `a` plus the previous weight times `b`) times
    its table value. -/
def acc (w : BitVec 32) (a b : EReal) (Y : Nat → EReal) : Nat → EReal
  | 0 => z0
  | k + 1 => acc w a b Y k + (ind w k * a + indPrev w k * b) * Y k

/-- Against a word that is the number `i`, the weight of `k` is one at `k = i` and zero elsewhere. -/
theorem ind_ofNat (i k : Nat) (hi : i < 2 ^ 32) (hk : k < 2 ^ 32) :
    ind (BitVec.ofNat 32 i) k = if i = k then 1 else 0 := by
  unfold ind IntOp.cmpi
  by_cases h : i = k
  · subst h
    rw [if_pos rfl]
    have : (BitVec.ofNat 32 i == BitVec.ofNat 32 i) = true := by simp
    simp only [this]
    have : ((BitVec.ofBool true).setWidth 32).toInt = 1 := by decide
    rw [this]; simp
  · rw [if_neg h]
    have : (BitVec.ofNat 32 i == BitVec.ofNat 32 k) = false := by
      rw [beq_eq_false_iff_ne]
      intro e
      have := congrArg BitVec.toNat e
      simp only [BitVec.toNat_ofNat] at this
      rw [Nat.mod_eq_of_lt hi, Nat.mod_eq_of_lt hk] at this
      exact h this
    simp only [this]
    have : ((BitVec.ofBool false).setWidth 32).toInt = 0 := by decide
    rw [this]; simp

theorem indPrev_ofNat (i k : Nat) (hi : i < 2 ^ 32) (hk : k < 2 ^ 32) :
    indPrev (BitVec.ofNat 32 i) k = if i + 1 = k then 1 else 0 := by
  cases k with
  | zero => simp [indPrev, z0_eq]
  | succ k =>
    show ind (BitVec.ofNat 32 i) k = _
    rw [ind_ofNat i k hi (by omega)]
    by_cases h : i = k
    · rw [if_pos h, if_pos (by omega)]
    · rw [if_neg h, if_neg (by omega)]

/-- With the word the number `i`, only knots `i` and `i + 1` contribute: after `n` knots the accumulator is `a` times the
    value at `i` (once `i` has been passed) plus `b` times the value at `i + 1` (once that has). -/
theorem acc_ofNat (i : Nat) (hi : i < 2 ^ 31) (a b : EReal) (Y : Nat → EReal) (n : Nat) (hn : n < 2 ^ 31) :
    acc (BitVec.ofNat 32 i) a b Y n
      = (if i < n then a * Y i else 0) + (if i + 1 < n then b * Y (i + 1) else 0) := by
  induction n with
  | zero => simp [acc, z0_eq]
  | succ n ih =>
    show acc (BitVec.ofNat 32 i) a b Y n + (ind (BitVec.ofNat 32 i) n * a + indPrev (BitVec.ofNat 32 i) n * b) * Y n = _
    rw [ih (by omega), ind_ofNat i n (by omega) (by omega), indPrev_ofNat i n (by omega) (by omega)]
    by_cases h1 : i = n
    · subst h1
      simp
    · by_cases h2 : i + 1 = n
      · subst h2
        simp
      · rw [if_neg h1, if_neg h2]
        have e1 : (i < n + 1) = (i < n) := by apply propext; omega
        have e2 : (i + 1 < n + 1) = (i + 1 < n) := by apply propext; omega
        simp only [e1, e2, zero_mul, add_zero]

/-! ## Operations read at one element -/

section AtIndex
variable {s : Shape}

theorem cmpi_apply {w : Nat} (c : CmpIPredicate) (x y : IVec s w) (i : s.Idx) : cmpi c x y i = IntOp.cmpi c (x i) (y i) := rfl
theorem maxsi_apply {w : Nat} (x y : IVec s w) (i : s.Idx) : maxsi x y i = IntOp.maxsi (x i) (y i) := rfl
theorem minsi_apply {w : Nat} (x y : IVec s w) (i : s.Idx) : minsi x y i = IntOp.minsi (x i) (y i) := rfl
theorem fptosi_apply {φ : FTy} (w : Nat) (x : FVec Ideal s φ) (i : s.Idx) : fptosi w x i = Ideal.fptosi w (x i) := rfl
theorem floor_apply {φ : FTy} (x : FVec Ideal s φ) (i : s.Idx) : floor x i = Ideal.liftRound Int.floor (x i) := rfl

/-- The 0/1 weight as the kernel forms it is `ind`. -/
theorem sitofp_ind (w : BitVec 32) (k : Nat) :
    FloatOps.sitofp (F := Ideal) .f32 ((IntOp.cmpi .eq w (BitVec.ofNat 32 k)).setWidth 32) = ind w k := rfl

theorem scalar_zero : (Scalar.ofBits .f32 0x00000000#32 : Ideal .f32) = z0 := rfl

end AtIndex

/-- A one-row cut of the 91-row table is in range, so its row offset is below 91. -/
theorem tableRow_lt (off : Fin S91x48.rank → Nat) (hs : S91x48.Slices off S1x48) : off 0 < 91 := by
  have := hs.2 0
  have e : S1x48.size ((0 : Fin S91x48.rank).cast hs.1.symm) = 1 := rfl
  have e' : S91x48.size 0 = 91 := rfl
  rw [e, e'] at this
  omega

/-- A one-row cut of the knot table at offsets `off`, flattened, made a one-row matrix again and repeated down the
    256 rows, reads at `(p, q)` the table's entry `(off 0, q)`: the cut is in range, so its column offset is 0. -/
theorem tableRow_apply {α : Type} (off : Fin S91x48.rank → Nat) (v0 : S91x48.Idx → α) (hs : S91x48.Slices off S1x48)
    (h1 : S1x48.ShapeCasts S48) (h2 : S48.ShapeCasts S1x48) (h3 : S1x48.Broadcasts S256x48) (p : Fin 256) (q : Fin 48) :
    broadcastTo S256x48 (shapeCast S1x48 (shapeCast S48 (extractStridedSlice S1x48 off v0 hs) h1) h2) h3 (ix2 p q)
      = v0 (ix2 ⟨off 0, tableRow_lt off hs⟩ q) := by
  have hc : off 1 = 0 := by
    have := hs.2 1
    have e : S1x48.size ((1 : Fin S91x48.rank).cast hs.1.symm) = 48 := rfl
    have e' : S91x48.size 1 = 48 := rfl
    rw [e, e'] at this
    omega
  rw [broadcastTo_1b_ab_apply, shapeCast_a_1a_apply, shapeCast_1a_a_apply]
  refine extractStridedSlice_apply off v0 hs (ix2 (0 : Fin 1) q) (ix2 ⟨off 0, tableRow_lt off hs⟩ q) (fun a => ?_)
  match a with
  | ⟨0, _⟩ => exact (Nat.add_zero _).symm
  | ⟨1, _⟩ =>
    show q.val = off 1 + q.val
    rw [hc, Nat.zero_add]

/-- The fractional part the trip computes is the specification's. -/
theorem pay4_apply (v5 : Vec Ideal S256x48 .f32) (p : Fin 256) (q : Fin 48) :
    k0_pay4 (F := Ideal) v5 (ix2 p q) = Cert.Spline.frac (v5 (ix2 p q)) := by
  simp only [k0_pay4, k0_pay3, k0_pay2, shapeCast_self, subf_apply, floor_apply, minimumf_apply, maximumf_apply,
    divf_apply, broadcast_apply]
  rfl

/-- The clamped knot word the trip computes is the specification's. -/
theorem pay5_apply (v5 : Vec Ideal S256x48 .f32) (p : Fin 256) (q : Fin 48) :
    k0_pay5 (F := Ideal) v5 (ix2 p q) = Cert.Spline.knot (v5 (ix2 p q)) := by
  simp only [k0_pay5, k0_pay3, k0_pay2, shapeCast_self, subf_apply, floor_apply, minimumf_apply, maximumf_apply,
    divf_apply, broadcast_apply, minsi_apply, maxsi_apply, fptosi_apply]
  rfl

/-- The complementary weight the trip computes is the specification's. -/
theorem pay6_apply (v5 : Vec Ideal S256x48 .f32) (p : Fin 256) (q : Fin 48) :
    k0_pay6 (F := Ideal) v5 (ix2 p q) = Cert.Spline.cofrac (v5 (ix2 p q)) := by
  simp only [k0_pay6, subf_apply, broadcast_apply, pay4_apply]
  rfl

/-! ## The trip's stored value at one element -/

/-- At one element the trip's stored value is the recurrence run over all 91 knots, with the specification's knot word,
    lower weight and upper weight, against the element's channel of the table: every vector operation of the body reads
    through at the element, and what is left is the recurrence's own unfolding. -/
theorem tripPay_eq_acc (v0 : Vec Ideal S91x48 .f32) (v5 : Vec Ideal S256x48 .f32) (p : Fin 256) (q : Fin 48) :
    tripPay (F := Ideal) v0 v5 (ix2 p q)
      = acc (Cert.Spline.knot (v5 (ix2 p q))) (Cert.Spline.cofrac (v5 (ix2 p q))) (Cert.Spline.frac (v5 (ix2 p q)))
          (fun k => if h : k < 91 then v0 (ix2 ⟨k, h⟩ q) else 0) 91 := by
  simp only [tripPay,
    k0_pay1, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81, k0_pay82,
    k0_pay83, k0_pay84, k0_pay85, k0_pay86, k0_pay87,
    mulf_apply, addf_apply, sitofp_apply, extui_apply, cmpi_apply, broadcast_apply, tableRow_apply,
    pay4_apply, pay5_apply, pay6_apply, sitofp_ind, scalar_zero]
  rfl

/-- The stored value of one trip at row `p`, channel `q`: the interpolation of the trip's input element against the
    channel's column of the knot table. The knot word is a number `i` below 90, so the recurrence leaves the lower weight
    times the table's entry `i` plus the upper weight times entry `i + 1`; the products commute. -/
theorem tripPay_apply (v0 : Vec Ideal S91x48 .f32) (v5 : Vec Ideal S256x48 .f32) (p : Fin 256) (q : Fin 48) :
    tripPay (F := Ideal) v0 v5 (ix2 p q) = Cert.Spline.val (v5 (ix2 p q)) (fun k => v0 (ix2 k q)) := by
  rw [tripPay_eq_acc]
  obtain ⟨i, hi, hw⟩ := Cert.Spline.knot_range (v5 (ix2 p q))
  have hi0 : i < 91 := by omega
  have hi1 : i + 1 < 91 := by omega
  unfold Cert.Spline.val
  rw [hw, acc_ofNat i (by omega) _ _ _ 91 (by norm_num), Cert.Spline.row_ofNat i hi0, Cert.Spline.row_ofNat_succ i hi]
  simp only [if_pos hi0, if_pos hi1, dif_pos hi0, dif_pos hi1]
  rw [mul_comm (Cert.Spline.cofrac (v5 (ix2 p q)))]

end Cert.KernelIdeal.Pay

end
-- ==== Proof.KernelBlock.lean ====
/-
  The output block after the kernel body, as one function of the input block and the knot table: every element is
  the interpolation of the input block's element at the same place against its channel's column of the table. Each of
  the loop's 32 slabs is that function restricted to its rows, and the slabs cover the block.
-/
import proofs.«148370_j48223892799740_2_alg».proof.Proof.KernelPieces
import proofs.«148370_j48223892799740_2_alg».proof.Proof.PayValue
import proofs.«148370_j48223892799740_2_alg».proof.Proof.Spec
import Idealize.ShloMosaic.Lib.ValueIdx

set_option maxRecDepth 16384

noncomputable section

open Idealize.ShloMosaic Idealize.ShloMosaic.TcCoe Idealize.ShloMosaic.Tactic Idealize.SL.Sem Idealize.ShloMosaic.ValueIdx

namespace Cert.KernelIdeal.Block

open Cert.KernelIdeal Cert.KernelIdeal.Gen Cert.KernelIdeal.Pay Cert.KernelIdeal.Pieces

theorem hz : (![0, 0] : Fin 2 → Nat) = fun _ => 0 := funext fun a => by fin_cases a <;> rfl

/-- The block the body computes: elementwise, the interpolation of the input block's element against its channel's
    column of the knot table. -/
def Gblk (x0 : Vec Ideal S8192x48 .f32) (x1 : Vec Ideal S91x48 .f32) : Vec Ideal S8192x48 .f32 :=
  fun y => Cert.Spline.val (x0 y) (fun k => x1 (ix2 k ⟨(y 1).val, idx2_lt1 y⟩))

/-- Trip `k`'s slab is `Gblk` on its rows. -/
theorem piece_restricts (c : Dev nD) (i : grid0.Coords) (arg1 : Memref sig .tc .vmem S8192x48 .f32) (harg1 : arg1.IsWhole) (arg2 : Memref sig .tc .vmem S91x48 .f32) (harg2 : arg2.IsWhole) (arg3 : Memref sig .tc .vmem S8192x48 .f32) (harg3 : arg3.IsWhole)
    (x0 : Vec Ideal S8192x48 .f32) (x1 : Vec Ideal S91x48 .f32) (k : Fin k0_t1_loop.trips) :
    ∀ p ∈ tripL_k0_t1 (F := Ideal) Variants.none c none i arg1 harg1 arg2 harg2 arg3 harg3
        (View.readAt (Elt Ideal) arg2.view (Rect.unit (s := S91x48) ![0, 0] S91x48.size inb_S91x48_S91x48_0_0).toLoadRect (harg2.unread x1))
        (harg1.unread x0) k,
      ∀ x : p.1.shape.Idx, p.2 x = Gblk x0 x1 (p.1.emb x) := by
  intro p hp
  rw [tripL_eq, List.mem_singleton] at hp
  subst hp
  intro x
  obtain ⟨a, b, rfl⟩ : ∃ (a : Fin 256) (b : Fin 48), x = ix2 a b := ⟨x 0, x 1, eq_ix2 x⟩
  show tripPay _ _ (ix2 a b) = _
  rw [tripPay_apply]
  simp only [View.readAt_eq_ld, harg1.read_unread, harg2.read_unread, View.ld_unit_zero (S := S91x48) hz]
  unfold Gblk
  refine congrArg (Cert.Spline.val _) (funext fun k' => ?_)
  refine (congrFun (View.ld_unit_zero (S := S91x48) hz inb_S91x48_S91x48_0_0 x1) (ix2 k' b)).trans
    (congrArg x1 (congrArg (ix2 k') (Fin.ext ?_)))
  show b.val = (k0_off1 k) 1 + 1 * b.val
  rw [show (k0_off1 k) 1 = 0 from rfl]; omega

/-- So are the slabs of the first `n` trips, for every `n` up to the trip count. -/
theorem pieces_all (c : Dev nD) (i : grid0.Coords) (arg1 : Memref sig .tc .vmem S8192x48 .f32) (harg1 : arg1.IsWhole) (arg2 : Memref sig .tc .vmem S91x48 .f32) (harg2 : arg2.IsWhole) (arg3 : Memref sig .tc .vmem S8192x48 .f32) (harg3 : arg3.IsWhole)
    (x0 : Vec Ideal S8192x48 .f32) (x1 : Vec Ideal S91x48 .f32) :
    ∀ n, n ≤ k0_t1_loop.trips → ∀ p ∈ pb_k0_t1 (F := Ideal) Variants.none c none i arg1 harg1 arg2 harg2 arg3 harg3
        (View.readAt (Elt Ideal) arg2.view (Rect.unit (s := S91x48) ![0, 0] S91x48.size inb_S91x48_S91x48_0_0).toLoadRect (harg2.unread x1))
        (harg1.unread x0) n,
      ∀ x : p.1.shape.Idx, p.2 x = Gblk x0 x1 (p.1.emb x)
  | 0, _ => fun p hp => absurd hp (by rw [pb_k0_t1]; exact List.not_mem_nil)
  | n + 1, hn => fun p hp => by
      have hs := pb_k0_t1_succ (F := Ideal) Variants.none c none i arg1 harg1 arg2 harg2 arg3 harg3
        (View.readAt (Elt Ideal) arg2.view (Rect.unit (s := S91x48) ![0, 0] S91x48.size inb_S91x48_S91x48_0_0).toLoadRect (harg2.unread x1))
        (harg1.unread x0) ⟨n, hn⟩
      rw [show (⟨n, hn⟩ : Fin k0_t1_loop.trips).val + 1 = n + 1 from rfl] at hs
      rw [hs] at hp
      rcases List.mem_append.mp hp with h | h
      · exact piece_restricts c i arg1 harg1 arg2 harg2 arg3 harg3 x0 x1 ⟨n, hn⟩ p h
      · exact pieces_all c i arg1 harg1 arg2 harg2 arg3 harg3 x0 x1 n (Nat.le_of_succ_le hn) p h

/-- The output block after the body is `Gblk` of the input block and the table. -/
theorem out_eq (c : Dev nD) (i : grid0.Coords) (arg1 : Memref sig .tc .vmem S8192x48 .f32) (harg1 : arg1.IsWhole) (arg2 : Memref sig .tc .vmem S91x48 .f32) (harg2 : arg2.IsWhole) (arg3 : Memref sig .tc .vmem S8192x48 .f32) (harg3 : arg3.IsWhole)
    (x0 : Vec Ideal S8192x48 .f32) (x1 : Vec Ideal S91x48 .f32) :
    out0_A_2 (F := Ideal) c i arg1 harg1 arg2 harg2 arg3 harg3 x0 x1 = Gblk x0 x1 := by
  unfold out0_A_2
  rw [View.read_writes_eq_canon _ _ _ (cover0_A_2 c i arg1 harg1 arg2 harg2 arg3 harg3 x0 x1)]
  funext y
  refine View.canon_apply_of_pieces (Gblk x0 x1) _ ?_ y (cover0_A_2 c i arg1 harg1 arg2 harg2 arg3 harg3 x0 x1 y)
  rw [run_pieces]
  exact pieces_all c i arg1 harg1 arg2 harg2 arg3 harg3 x0 x1 k0_t1_loop.trips le_rfl

end Cert.KernelIdeal.Block

end
-- ==== Proof.KernelArray.lean ====
/-
  From the output block to the program's result. Grid point `t` stages rows `8192·t … 8192·t + 8191` of the flattened
  input and the whole knot table, and writes back the same rows of the flattened output; so what it writes back is the
  block of ONE function of the flattened input `X` and the table `Y` — elementwise the interpolation of `X`'s element
  against its channel's column of `Y` (`Garr`) —, the 128 blocks cover the array, and the array after the region is
  `Garr X Y`. The flattened input is the argument reshaped by the host line before the region, and the program's
  result is that array reshaped back by the host line after it.
-/
import proofs.«148370_j48223892799740_2_alg».proof.Proof.KernelBlock
import Idealize.ShloMosaic.Lib.StableHlo.Run

set_option maxRecDepth 16384

noncomputable section

open Idealize.ShloMosaic Idealize.ShloMosaic.TcCoe Idealize.ShloMosaic.Tactic Idealize.SL.Sem Idealize.ShloMosaic.ValueIdx
open Idealize.ShloMosaic.Pipeline (Dat)

namespace Cert.KernelIdeal.Arr

open Cert.KernelIdeal Cert.KernelIdeal.Gen Cert.KernelIdeal.Block

variable (m : (ℓ : Loc nD τ sig) → Buf (Elt Ideal) ℓ) (ρ : Dev nD → PrngReg)

/-- The flattened output as a function of the flattened input `X` and the knot table `Y`. -/
def Garr (X : S1048576x48.Idx → EReal) (Y : S91x48.Idx → EReal) : S1048576x48.Idx → EReal :=
  fun y => Cert.Spline.val (X y) (fun k => Y (ix2 k ⟨(y 1).val, idx2_lt1 y⟩))

/-- The printed index maps, decided over the grid: the input's and the output's block move together down the rows, the
    table's block stays at the origin. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `Garr` of the arrays as the region finds them. -/
theorem flushed_eq (c : Dev nD) (t : Fin cfg0.N) :
    (dats m 0 c).flushed 2 t = ((cfg0.win 2).blk t).view.read (Elt Ideal) (Garr (V m c main_v0) (V m c main_arg1)) := by
  show (cfg0.win 2).cut (grid0.coords t) ((dats m 0 c).after 2 t) = _
  rw [after0_2]
  unfold outsAt0
  rw [out_eq]
  obtain ⟨e0, e1, e2, e3, e4, e5⟩ := idx_facts t
  funext j
  have hj0 : (j 0).val < 8192 := (j 0).isLt
  have hj1 : (j 1).val < 48 := (j 1).isLt
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 48 + 1 * (j 1).val = win0_2.index t (1 : Fin 2) * 48 + 1 * (j 1).val; omega
  have h1 : ∀ (k : Fin 91) (b : Fin 48), ((cfg0.win 1).blk t).view.emb (ix2 k b) = ix2 k b := by
    intro k b
    funext a; apply Fin.ext
    match a with
    | ⟨0, _⟩ => show win0_1.index t (0 : Fin 2) * 91 + 1 * k.val = k.val; omega
    | ⟨1, _⟩ => show win0_1.index t (1 : Fin 2) * 48 + 1 * b.val = b.val; omega
  have h2 : (⟨((((cfg0.win 2).blk t).view.emb j) 1).val, idx2_lt1 _⟩ : Fin 48) = ⟨(j 1).val, hj1⟩ := by
    apply Fin.ext
    show win0_2.index t (1 : Fin 2) * 48 + 1 * (j 1).val = (j 1).val; omega
  show Cert.Spline.val (V m c main_v0 (((cfg0.win 0).blk t).view.emb j))
      (fun k => V m c main_arg1 (((cfg0.win 1).blk t).view.emb (ix2 k ⟨(j 1).val, hj1⟩)))
    = Cert.Spline.val (V m c main_v0 (((cfg0.win 2).blk t).view.emb j))
      (fun k => V m c main_arg1 (ix2 k ⟨((((cfg0.win 2).blk t).view.emb j) 1).val, idx2_lt1 _⟩))
  rw [h0, h2]
  simp only [h1]

/-- An index of the flattened output is in point `t`'s block iff its row is among the block's rows. -/
theorem mem_blk (t : Fin cfg0.N) (i : S1048576x48.Idx) :
    i ∈ ((cfg0.win 2).blk t).view.set ↔ ∀ a : Fin 2, win0_2.index t a * S8192x48.size a ≤ (i a).val ∧ (i a).val < win0_2.index t a * S8192x48.size a + S8192x48.size a := by
  show i ∈ ((View.whole main_v1).slice (win0_2.rect t)).set ↔ _
  rw [View.set_slice_whole, Rect.mem_set_unit]
  exact Iff.rfl

/-- The flattened output after the region: row `r` lies in the block of point `r / 8192`. -/
theorem final (c : Dev nD) : (dats m 0 c).arrAt 2 cfg0.N = Garr (V m c main_v0) (V m c main_arg1) :=
  (dats m 0 c).arrAt_eq_of_cover 2 _ (fun t _ => flushed_eq m c t) fun i => by
    have hi0 : (i 0).val < 1048576 := (i 0).isLt
    have hi1 : (i 1).val < 48 := (i 1).isLt
    have hN : cfg0.N = 128 := N_0
    have ht : (i 0).val / 8192 < cfg0.N := by rw [hN]; omega
    refine ⟨⟨(i 0).val / 8192, ht⟩, flush0_2 _, ?_⟩
    rw [mem_blk]
    obtain ⟨e0, e1, e2, e3, e4, e5⟩ := idx_facts ⟨(i 0).val / 8192, ht⟩
    intro a
    match a with
    | ⟨0, _⟩ =>
      show win0_2.index ⟨(i 0).val / 8192, ht⟩ (0 : Fin 2) * 8192 ≤ (i 0).val ∧ (i 0).val < win0_2.index ⟨(i 0).val / 8192, ht⟩ (0 : Fin 2) * 8192 + 8192
      rw [e4]; show (i 0).val / 8192 * 8192 ≤ (i 0).val ∧ (i 0).val < (i 0).val / 8192 * 8192 + 8192; omega
    | ⟨1, _⟩ =>
      show win0_2.index ⟨(i 0).val / 8192, ht⟩ (1 : Fin 2) * 48 ≤ (i 1).val ∧ (i 1).val < win0_2.index ⟨(i 0).val / 8192, ht⟩ (1 : Fin 2) * 48 + 48
      rw [e5]; omega

/-- The region finds the flattened input at the argument reshaped (the host line before it). -/
theorem V_main_v0 (c : Dev nD) : (V m c main_v0 : S1048576x48.Idx → EReal)
    = shapeCast S1048576x48 (m ((c : Thread nD τ).loc main_arg0)) shapeCasts_S16x256x256x48_S1048576x48 := by
  show StableHlo.after hostOps0 (fun b => m (c, b)) (Proc.devRef .tc main_v0) = _
  after_results
  rfl

/-- The program's result: the array the region leaves, reshaped (the host line after it). -/
theorem tail_eq (c : Dev nD) : Pipeline.afterTail₀ cfgs (dats m) 0 (V0 m) [hostOps1] c main_v2
    = shapeCast S16x256x256x48 ((dats m 0 c).arrAt 2 cfg0.N) shapeCasts_S1048576x48_S16x256x256x48 := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = (dats m 0 c).arrAt 2 cfg0.N from Pipeline.withArrays_arr spec0 launch0.win.arr_inj c _ _ 2]
  rfl

/-- The program's result as a function of its arguments: the first argument flattened, interpolated elementwise
    against the knot table, reshaped back. -/
def result (c : Dev nD) : Buf (Elt Ideal) ((c : Thread nD τ).loc main_v2) :=
  shapeCast S16x256x256x48
    (Garr (shapeCast S1048576x48 (m ((c : Thread nD τ).loc main_arg0)) shapeCasts_S16x256x256x48_S1048576x48)
      (m ((c : Thread nD τ).loc main_arg1)))
    shapeCasts_S1048576x48_S16x256x256x48

/-- The run, read: the result buffer at `result`, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans
          ((tail_eq m c).trans (by rw [final, V_main_v0, V_main_arg1]; rfl)),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.Arr

end
-- ==== Proof.RefSide.lean ====
import proofs.«148370_j48223892799740_2_alg».proof.Proof.RefRead
import proofs.«148370_j48223892799740_2_alg».proof.Proof.Spec
import Idealize.ShloMosaic.Lib.ValueIdx
import Idealize.ShloMosaic.Lib.Pipeline.Value
import Idealize.ShloMosaic.Lib.ReduceAll

noncomputable section

namespace Cert.ReferenceIdeal.RefSide

open Idealize.ShloMosaic Idealize.ShloMosaic.ValueIdx Cert.ReferenceIdeal Cert.ReferenceIdeal.ReadP

/-! ## Words: a row number of the 91-row table, compared and selected on -/

/-- A natural number below 91, as a 32-bit word read signed, is itself. -/
theorem toInt_ofNat_small (i : Nat) (hi : i < 91) : (BitVec.ofNat 32 i).toInt = (i : Int) := by
  rw [BitVec.toInt_eq_toNat_cond, BitVec.toNat_ofNat]
  have : i % 2 ^ 32 = i := Nat.mod_eq_of_lt (by omega)
  rw [this]; split <;> omega

/-- Such a word is not negative, so the wrap-around `w < 0 ? w + 91 : w` leaves it alone. -/
theorem select_wrap (i : Nat) (hi : i < 91) :
    Scalar.select (IntOp.cmpi .slt (BitVec.ofNat 32 i) 0#32) (IntOp.addi (BitVec.ofNat 32 i) 91#32) (BitVec.ofNat 32 i)
      = BitVec.ofNat 32 i := by
  have h0 : IntOp.cmpi .slt (BitVec.ofNat 32 i) 0#32 = 0#1 := by
    refine eq_zero_of_ne_one (fun h => ?_)
    rw [IntOp.cmpi_slt, toInt_ofNat_small i hi] at h
    have : (0#32 : BitVec 32).toInt = 0 := by decide
    omega
  rw [h0, select_zero]

/-- Such a word passes the bounds test `0 ≤ w ∧ w ≤ 90`. -/
theorem inbounds (i : Nat) (hi : i < 91) :
    IntOp.andi (IntOp.cmpi .sge (BitVec.ofNat 32 i) 0#32) (IntOp.cmpi .sle (BitVec.ofNat 32 i) 90#32) = 1#1 := by
  have h0 : (0#32 : BitVec 32).toInt = 0 := by decide
  have h90 : (90#32 : BitVec 32).toInt = 90 := by decide
  refine IntOp.andi_eq_one.2 ⟨IntOp.cmpi_sge.2 ?_, IntOp.cmpi_sle.2 ?_⟩
  · rw [toInt_ofNat_small i hi, h0]; omega
  · rw [toInt_ofNat_small i hi, h90]; omega

/-- One more than a word below 90 is the next natural number's word. -/
theorem addi_one_ofNat (i : Nat) : IntOp.addi (BitVec.ofNat 32 i) 1#32 = BitVec.ofNat 32 (i + 1) := by
  unfold IntOp.addi
  apply BitVec.eq_of_toNat_eq
  simp [BitVec.toNat_add, BitVec.toNat_ofNat]

/-! ## An `and`-reduction of an array of ones -/

/-- A left fold by `and`, from 1, over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    have e : IntOp.andi (1#1 : BitVec 1) 1#1 = 1#1 := by decide
    rw [e]
    exact foldl_andi_ones f l (fun n hn => h n (List.mem_cons_of_mem _ hn))

/-- An `and`-reduction, from 1, of an array whose every word is 1 is 1 at every result index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ (fun n _ => hx n)

/-! ## The batched gather, read at an index -/

/-- The gather's dimension numbers: rows of the table taken along axis 0, the channel axis carried as a batch axis. -/
private abbrev G := gather_S91x48_S1048576x48x1_S1048576x48_n_0_1_1_0_2_11

/-- THE GATHER READ AT `(n, c)`: the table at row `idx[n, c, 0]` — read signed and clamped into the 91 rows — of
    channel `c`. -/
theorem gather_apply {α : Type} (x1 : S91x48.Idx → α) (idx : IVec S1048576x48x1 32) (n : Fin 1048576) (c : Fin 48) :
    Host.gather G x1 idx (ix2 n c) = x1 (ix2 (Spline.row (idx (ix3 n c 0))) c) := by
  unfold Host.gather
  congr 1
  funext a
  refine Fin.ext ?_
  match a with
  | ⟨0, _⟩ =>
    -- axis 0 is the start index's only component, collapsed, not a batch axis
    show G.start (ix2 n c) idx (0 : Fin 2) + G.batchCoord (ix2 n c) (0 : Fin 2) + G.offCoord (ix2 n c) (0 : Fin 2)
      = min (idx (ix3 n c 0)).toInt.toNat 90
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix2 n c) ⟨List.idxOf (0 : Fin 2) G.startIndexMap,
        List.idxOf_lt_length_iff.2 (List.mem_singleton.mpr rfl)⟩ = ix3 n c 0 := by
      funext b; refine Fin.ext ?_
      match b with
      | ⟨0, _⟩ => rfl
      | ⟨1, _⟩ => rfl
      | ⟨2, _⟩ => rfl
    rw [hsi]
    rfl
  | ⟨1, _⟩ =>
    -- axis 1 is the batch axis: no start component, no offset, the result's own channel coordinate
    show G.start (ix2 n c) idx (1 : Fin 2) + G.batchCoord (ix2 n c) (1 : Fin 2) + G.offCoord (ix2 n c) (1 : Fin 2) = c.val
    rw [GatherDims.start_batching _ _ _ _ (show (1 : Fin 2) ∈ G.operandBatchingDims from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (1 : Fin 2) ∈ G.operandBatchingDims from List.mem_singleton.mpr rfl)]
    rfl

/-! ## The reshape `[N, 48] → [N, 48, 1]` read at `(n, c, 0)` -/

theorem idx_call2_v5 (n : Fin 1048576) (c : Fin 48) : idx_main_call2_v5 (ix3 n c 0) = ix2 n c := by
  funext a
  refine Fin.ext ?_
  have hn : n.val < 1048576 := n.isLt
  have hc : c.val < 48 := c.isLt
  match a with
  | ⟨0, _⟩ => show ((n.val * 48 + c.val) * 1 + 0) / 48 = n.val; omega
  | ⟨1, _⟩ => show ((n.val * 48 + c.val) * 1 + 0) % 48 = c.val; omega

theorem idx_call3_v5 (n : Fin 1048576) (c : Fin 48) : idx_main_call3_v5 (ix3 n c 0) = ix2 n c := by
  funext a
  refine Fin.ext ?_
  have hn : n.val < 1048576 := n.isLt
  have hc : c.val < 48 := c.isLt
  match a with
  | ⟨0, _⟩ => show ((n.val * 48 + c.val) * 1 + 0) / 48 = n.val; omega
  | ⟨1, _⟩ => show ((n.val * 48 + c.val) * 1 + 0) % 48 = c.val; omega

/-! ## The stages before the two table look-ups, at an index -/

/-- The clipped knot coordinate. -/
theorem v5_eq (x0 : (⟨S16x256x256x48, .f32⟩ : BufTy).Contents (Elt Ideal)) (k : S1048576x48.Idx) :
    val_main_v5 (F := Ideal) x0 k = Spline.pos (val_main_v0 (F := Ideal) x0 k) := by
  rw [val_main_v5_apply, val_main_call0_v4_apply, val_main_call0_v3_apply, val_main_cst_2_apply,
    val_main_call0_v2_apply, val_main_call0_v1_apply, val_main_call0_v0_apply, val_main_cst_1_apply,
    val_main_v4_apply, val_main_v2_apply, val_main_v1_apply, val_main_cst_apply, val_main_v3_apply, val_main_cst_0_apply]
  rfl

/-- Its integer part. -/
theorem v6_eq (x0 : (⟨S16x256x256x48, .f32⟩ : BufTy).Contents (Elt Ideal)) (k : S1048576x48.Idx) :
    val_main_v6 (F := Ideal) x0 k = Spline.flo (val_main_v0 (F := Ideal) x0 k) := by
  rw [val_main_v6_apply, v5_eq]
  rfl

/-- Its fractional part. -/
theorem v7_eq (x0 : (⟨S16x256x256x48, .f32⟩ : BufTy).Contents (Elt Ideal)) (k : S1048576x48.Idx) :
    val_main_v7 (F := Ideal) x0 k = Spline.frac (val_main_v0 (F := Ideal) x0 k) := by
  rw [val_main_v7_apply, v5_eq, v6_eq]
  rfl

/-- The lower knot's number: the integer part converted to a word and clamped to 0 … 89. -/
theorem v9_eq (x0 : (⟨S16x256x256x48, .f32⟩ : BufTy).Contents (Elt Ideal)) (k : S1048576x48.Idx) :
    val_main_v9 (F := Ideal) x0 k = Spline.knot (val_main_v0 (F := Ideal) x0 k) := by
  rw [val_main_v9_apply, val_main_call1_v4_apply, val_main_call1_v3_apply, val_main_c_3_apply,
    val_main_call1_v2_apply, val_main_call1_v1_apply, val_main_call1_v0_apply, val_main_c_apply,
    val_main_v8_apply, v6_eq]
  rfl

/-- The upper knot's number. -/
theorem v11_eq (x0 : (⟨S16x256x256x48, .f32⟩ : BufTy).Contents (Elt Ideal)) (k : S1048576x48.Idx) :
    val_main_v11 (F := Ideal) x0 k = IntOp.addi (Spline.knot (val_main_v0 (F := Ideal) x0 k)) 1#32 := by
  rw [val_main_v11_apply, v9_eq, val_main_v10_apply, val_main_c_4_apply]

/-- The lower knot's weight. -/
theorem v15_eq (x0 : (⟨S16x256x256x48, .f32⟩ : BufTy).Contents (Elt Ideal)) (k : S1048576x48.Idx) :
    val_main_v15 (F := Ideal) x0 k = Spline.cofrac (val_main_v0 (F := Ideal) x0 k) := by
  rw [val_main_v15_apply, val_main_v14_apply, val_main_cst_5_apply, v7_eq]
  rfl

/-- The lower knot's number is a natural number below 91 (below 90, in fact). -/
theorem v9_range (x0 : (⟨S16x256x256x48, .f32⟩ : BufTy).Contents (Elt Ideal)) (k : S1048576x48.Idx) : ∃ i : Nat, i < 91 ∧ val_main_v9 (F := Ideal) x0 k = BitVec.ofNat 32 i := by
  obtain ⟨i, hi, e⟩ := Spline.knot_range (val_main_v0 (F := Ideal) x0 k)
  exact ⟨i, by omega, by rw [v9_eq, e]⟩

/-- So is the upper knot's. -/
theorem v11_range (x0 : (⟨S16x256x256x48, .f32⟩ : BufTy).Contents (Elt Ideal)) (k : S1048576x48.Idx) : ∃ i : Nat, i < 91 ∧ val_main_v11 (F := Ideal) x0 k = BitVec.ofNat 32 i := by
  obtain ⟨i, hi, e⟩ := Spline.knot_range (val_main_v0 (F := Ideal) x0 k)
  exact ⟨i + 1, by omega, by rw [v11_eq, e, addi_one_ofNat]⟩

/-! ## The look-up at the lower knot's number -/

/-- The number is not negative: the wrap-around of a negative index leaves it alone. -/
theorem call2_v4_eq (x0 : (⟨S16x256x256x48, .f32⟩ : BufTy).Contents (Elt Ideal)) (k : S1048576x48.Idx) :
    val_main_call2_v4 (F := Ideal) x0 k = val_main_v9 (F := Ideal) x0 k := by
  obtain ⟨i, hi, e⟩ := v9_range x0 k
  rw [val_main_call2_v4_apply, val_main_call2_v1_apply, val_main_call2_v3_apply, val_main_call2_v0_apply,
    val_main_call2_c_apply, val_main_call2_v2_apply, val_main_call2_c_0_apply, e]
  exact select_wrap i hi

/-- It is within the table's rows at every index: the bounds test is 1 … -/
theorem call2_v11_one (x0 : (⟨S16x256x256x48, .f32⟩ : BufTy).Contents (Elt Ideal)) (i : S1048576x48x1.Idx) :
    val_main_call2_v11 (F := Ideal) x0 i = 1#1 := by
  obtain ⟨m, hm, e⟩ := v9_range x0 (idx_main_call2_v5 i)
  rw [val_main_call2_v11_apply, val_main_call2_v7_apply, val_main_call2_v10_apply, val_main_call2_v5_apply,
    call2_v4_eq, e, val_main_call2_v6_apply, val_main_call2_c_2_apply, val_main_call2_v9_apply,
    val_main_call2_v8_apply, val_main_call2_c_1_apply]
  exact inbounds m hm

/-- … and so is its `and`-reduction over the unit axis. -/
theorem call2_v12_one (x0 : (⟨S16x256x256x48, .f32⟩ : BufTy).Contents (Elt Ideal)) (j : S1048576x48.Idx) :
    val_main_call2_v12 (F := Ideal) x0 j = 1#1 := by
  unfold val_main_call2_v12
  exact reduce_andi_ones _ _ _ _ (fun _ => rfl) (call2_v11_one x0) j

/-- The first look-up's result: the table at the lower knot's row, the element's channel. -/
theorem v12_eq (x0 : (⟨S16x256x256x48, .f32⟩ : BufTy).Contents (Elt Ideal)) (x1 : (⟨S91x48, .f32⟩ : BufTy).Contents (Elt Ideal)) (n : Fin 1048576) (c : Fin 48) :
    val_main_v12 (F := Ideal) x0 x1 (ix2 n c) = x1 (ix2 (Spline.row (val_main_v9 (F := Ideal) x0 (ix2 n c))) c) := by
  rw [val_main_v12_apply, call2_v12_one, select_one]
  unfold val_main_call2_v13
  rw [gather_apply, val_main_call2_v5_apply, idx_call2_v5, call2_v4_eq]

/-! ## The look-up at the upper knot's number -/

/-- The number is not negative: the wrap-around of a negative index leaves it alone. -/
theorem call3_v4_eq (x0 : (⟨S16x256x256x48, .f32⟩ : BufTy).Contents (Elt Ideal)) (k : S1048576x48.Idx) :
    val_main_call3_v4 (F := Ideal) x0 k = val_main_v11 (F := Ideal) x0 k := by
  obtain ⟨i, hi, e⟩ := v11_range x0 k
  rw [val_main_call3_v4_apply, val_main_call3_v1_apply, val_main_call3_v3_apply, val_main_call3_v0_apply,
    val_main_call3_c_apply, val_main_call3_v2_apply, val_main_call3_c_0_apply, e]
  exact select_wrap i hi

/-- It is within the table's rows at every index: the bounds test is 1 … -/
theorem call3_v11_one (x0 : (⟨S16x256x256x48, .f32⟩ : BufTy).Contents (Elt Ideal)) (i : S1048576x48x1.Idx) :
    val_main_call3_v11 (F := Ideal) x0 i = 1#1 := by
  obtain ⟨m, hm, e⟩ := v11_range x0 (idx_main_call3_v5 i)
  rw [val_main_call3_v11_apply, val_main_call3_v7_apply, val_main_call3_v10_apply, val_main_call3_v5_apply,
    call3_v4_eq, e, val_main_call3_v6_apply, val_main_call3_c_2_apply, val_main_call3_v9_apply,
    val_main_call3_v8_apply, val_main_call3_c_1_apply]
  exact inbounds m hm

/-- … and so is its `and`-reduction over the unit axis. -/
theorem call3_v12_one (x0 : (⟨S16x256x256x48, .f32⟩ : BufTy).Contents (Elt Ideal)) (j : S1048576x48.Idx) :
    val_main_call3_v12 (F := Ideal) x0 j = 1#1 := by
  unfold val_main_call3_v12
  exact reduce_andi_ones _ _ _ _ (fun _ => rfl) (call3_v11_one x0) j

/-- The second look-up's result: the table at the upper knot's row, the element's channel. -/
theorem v13_eq (x0 : (⟨S16x256x256x48, .f32⟩ : BufTy).Contents (Elt Ideal)) (x1 : (⟨S91x48, .f32⟩ : BufTy).Contents (Elt Ideal)) (n : Fin 1048576) (c : Fin 48) :
    val_main_v13 (F := Ideal) x0 x1 (ix2 n c) = x1 (ix2 (Spline.row (val_main_v11 (F := Ideal) x0 (ix2 n c))) c) := by
  rw [val_main_v13_apply, call3_v12_one, select_one]
  unfold val_main_call3_v13
  rw [gather_apply, val_main_call3_v5_apply, idx_call3_v5, call3_v4_eq]

/-! ## The result -/

/-- The reference's last stage before the final reshape, read at row `n`, channel `c`: the interpolation of the
    flattened input's element against the channel's column of the knot table. -/
theorem ref_apply (x0 : (⟨S16x256x256x48, .f32⟩ : BufTy).Contents (Elt Ideal)) (x1 : (⟨S91x48, .f32⟩ : BufTy).Contents (Elt Ideal))
    (n : Fin 1048576) (c : Fin 48) :
    val_main_v18 (F := Ideal) x0 x1 (ix2 n c)
      = Cert.Spline.val (val_main_v0 (F := Ideal) x0 (ix2 n c)) (fun k => x1 (ix2 k c)) := by
  rw [val_main_v18_apply, val_main_v16_apply, val_main_v17_apply, v12_eq, v13_eq, v15_eq, v7_eq, v9_eq, v11_eq]
  rfl

end Cert.ReferenceIdeal.RefSide

end
-- ==== Proof.RefResult.lean ====
/-
  The reference's result as one function of its arguments: the flattened input is the first argument reshaped, the
  flattened output is, elementwise, the interpolation of the flattened input's element against its channel's column of
  the knot table (the reference's gathers read exactly those two rows), and the result is that array reshaped back.
-/
import proofs.«148370_j48223892799740_2_alg».proof.Proof.RefSide

noncomputable section

namespace Cert.ReferenceIdeal.RefResult

open Idealize.ShloMosaic Idealize.ShloMosaic.TcCoe Idealize.SL.Sem Idealize.ShloMosaic.ValueIdx
open Cert.ReferenceIdeal Cert.ReferenceIdeal.ReadP

/-- The flattened output, every element at once. -/
theorem flat_eq (x0 : (⟨S16x256x256x48, .f32⟩ : BufTy).Contents (Elt Ideal)) (x1 : (⟨S91x48, .f32⟩ : BufTy).Contents (Elt Ideal)) :
    val_main_v18 (F := Ideal) x0 x1
      = fun y => Cert.Spline.val (val_main_v0 (F := Ideal) x0 y) (fun k => x1 (ix2 k ⟨(y 1).val, idx2_lt1 y⟩)) := by
  funext y
  obtain ⟨n, cc, rfl⟩ : ∃ (n : Fin 1048576) (cc : Fin 48), y = ix2 n cc := ⟨y 0, y 1, eq_ix2 y⟩
  exact Cert.ReferenceIdeal.RefSide.ref_apply x0 x1 n cc

end Cert.ReferenceIdeal.RefResult

end
-- ==== Proof.RefRun.lean ====
/-
  The reference's run, read back. Its @main is a straight line of 80 host operations (the two jnp.clip calls and the
  two take_along_axis calls stand inlined at their call sites); every weakly fair execution terminates with each buffer
  at the operations' fold over the launch contents. The fold is read in two stretches: after the first 29 operations the
  fractional part and the two knot-number arrays are the stages `val_main_v7`, `val_main_v9`, `val_main_v11` of the
  first argument; the remaining 51 operations — the two look-ups, the two products, the sum, the reshape — take ANY
  contents of those three buffers and of the knot table to `finish` of them, and `finish` of the stages is the
  reference's last stage `val_main_v19`. Reading the fold in two stretches keeps every equation between terms small. The inlined operations are first
  respelt with @main's own builders (`ops_eq`), which removes the casts their typed references carry.
-/
import proofs.«148370_j48223892799740_2_alg».proof.Proof.Gen.ReferenceIdeal
import proofs.«148370_j48223892799740_2_alg».proof.Proof.RefRead
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 80 operations, in order (a called function's operations stand in its call's place). -/
abbrev ops : List (HloOp τ sig (Elt F)) :=
  [ reshape main_arg0 main_v0 rfl shapeCasts_S16x256x256x48_S1048576x48,
    nullary main_cst (constant S_ .f32 0xC0400000#32),
    unary main_cst main_v1 (broadcastInDim S1048576x48 ![] bcast_S_S1048576x48 : (⟨S_, .f32⟩ : BufTy).Contents (Elt F) → (⟨S1048576x48, .f32⟩ : BufTy).Contents (Elt F)),
    binary main_v0 main_v1 main_v2 (subf : (⟨S1048576x48, .f32⟩ : BufTy).Contents (Elt F) → (⟨S1048576x48, .f32⟩ : BufTy).Contents (Elt F) → (⟨S1048576x48, .f32⟩ : BufTy).Contents (Elt F)),
    nullary main_cst_0 (constant S_ .f32 0x3D888889#32),
    unary main_cst_0 main_v3 (broadcastInDim S1048576x48 ![] bcast_S_S1048576x48 : (⟨S_, .f32⟩ : BufTy).Contents (Elt F) → (⟨S1048576x48, .f32⟩ : BufTy).Contents (Elt F)),
    binary main_v2 main_v3 main_v4 (Host.divf : (⟨S1048576x48, .f32⟩ : BufTy).Contents (Elt F) → (⟨S1048576x48, .f32⟩ : BufTy).Contents (Elt F) → (⟨S1048576x48, .f32⟩ : BufTy).Contents (Elt F)),
    nullary main_cst_1 (constant S_ .f32 0x3727C5AC#32),
    nullary main_cst_2 (constant S_ .f32 0x42B3FFFF#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S1048576x48, .f32⟩) main_call0_v1) (broadcastInDim S1048576x48 ![] bcast_S_S1048576x48),
    TRef.binary (TRef.of (T := ⟨S1048576x48, .f32⟩) main_call0_v1) (TRef.of (T := ⟨S1048576x48, .f32⟩) main_v4) (TRef.of (T := ⟨S1048576x48, .f32⟩) main_call0_v2) maximumf,
    TRef.unary (TRef.of (T := ⟨S_, .f32⟩) main_cst_2) (TRef.of (T := ⟨S_, .f32⟩) main_call0_v3) id,
    TRef.unary (TRef.of (T := ⟨S_, .f32⟩) main_call0_v3) (TRef.of (T := ⟨S1048576x48, .f32⟩) main_call0_v4) (broadcastInDim S1048576x48 ![] bcast_S_S1048576x48),
    TRef.binary (TRef.of (T := ⟨S1048576x48, .f32⟩) main_call0_v4) (TRef.of (T := ⟨S1048576x48, .f32⟩) main_call0_v2) (TRef.of (T := ⟨S1048576x48, .f32⟩) main_v5) minimumf,
    unary main_v5 main_v6 (Host.floor : (⟨S1048576x48, .f32⟩ : BufTy).Contents (Elt F) → (⟨S1048576x48, .f32⟩ : BufTy).Contents (Elt F)),
    binary main_v5 main_v6 main_v7 (subf : (⟨S1048576x48, .f32⟩ : BufTy).Contents (Elt F) → (⟨S1048576x48, .f32⟩ : BufTy).Contents (Elt F) → (⟨S1048576x48, .f32⟩ : BufTy).Contents (Elt F)),
    unary main_v6 main_v8 (fptosi 32 : (⟨S1048576x48, .f32⟩ : BufTy).Contents (Elt F) → (⟨S1048576x48, .i32⟩ : BufTy).Contents (Elt F)),
    nullary main_c (constantI S_ 32 0#32),
    nullary main_c_3 (constantI S_ 32 89#32),
    TRef.unary (TRef.of (T := ⟨S_, .i32⟩) main_c) (TRef.of (T := ⟨S_, .i32⟩) main_call1_v0) id,
    TRef.unary (TRef.of (T := ⟨S_, .i32⟩) main_call1_v0) (TRef.of (T := ⟨S1048576x48, .i32⟩) main_call1_v1) (broadcastInDim S1048576x48 ![] bcast_S_S1048576x48),
    TRef.binary (TRef.of (T := ⟨S1048576x48, .i32⟩) main_call1_v1) (TRef.of (T := ⟨S1048576x48, .i32⟩) main_v8) (TRef.of (T := ⟨S1048576x48, .i32⟩) main_call1_v2) maxsi,
    TRef.unary (TRef.of (T := ⟨S_, .i32⟩) main_c_3) (TRef.of (T := ⟨S_, .i32⟩) main_call1_v3) id,
    TRef.unary (TRef.of (T := ⟨S_, .i32⟩) main_call1_v3) (TRef.of (T := ⟨S1048576x48, .i32⟩) main_call1_v4) (broadcastInDim S1048576x48 ![] bcast_S_S1048576x48),
    TRef.binary (TRef.of (T := ⟨S1048576x48, .i32⟩) main_call1_v4) (TRef.of (T := ⟨S1048576x48, .i32⟩) main_call1_v2) (TRef.of (T := ⟨S1048576x48, .i32⟩) main_v9) minsi,
    nullary main_c_4 (constantI S_ 32 1#32),
    unary main_c_4 main_v10 (broadcastInDim S1048576x48 ![] bcast_S_S1048576x48 : (⟨S_, .i32⟩ : BufTy).Contents (Elt F) → (⟨S1048576x48, .i32⟩ : BufTy).Contents (Elt F)),
    binary main_v9 main_v10 main_v11 (addi : (⟨S1048576x48, .i32⟩ : BufTy).Contents (Elt F) → (⟨S1048576x48, .i32⟩ : BufTy).Contents (Elt F) → (⟨S1048576x48, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1048576x48, .i32⟩) main_call2_v0) (broadcastInDim S1048576x48 ![] bcast_S_S1048576x48),
    TRef.binary (TRef.of (T := ⟨S1048576x48, .i32⟩) main_v9) (TRef.of (T := ⟨S1048576x48, .i32⟩) main_call2_v0) (TRef.of (T := ⟨S1048576x48, .i1⟩) main_call2_v1) (cmpi .slt),
    TRef.nullary (TRef.of (T := ⟨S_, .i32⟩) main_call2_c_0) (constantI S_ 32 91#32),
    TRef.unary (TRef.of (T := ⟨S_, .i32⟩) main_call2_c_0) (TRef.of (T := ⟨S1048576x48, .i32⟩) main_call2_v2) (broadcastInDim S1048576x48 ![] bcast_S_S1048576x48),
    TRef.binary (TRef.of (T := ⟨S1048576x48, .i32⟩) main_v9) (TRef.of (T := ⟨S1048576x48, .i32⟩) main_call2_v2) (TRef.of (T := ⟨S1048576x48, .i32⟩) main_call2_v3) addi,
    TRef.ternary (TRef.of (T := ⟨S1048576x48, .i1⟩) main_call2_v1) (TRef.of (T := ⟨S1048576x48, .i32⟩) main_call2_v3) (TRef.of (T := ⟨S1048576x48, .i32⟩) main_v9) (TRef.of (T := ⟨S1048576x48, .i32⟩) main_call2_v4) select,
    TRef.reshape (TRef.of (T := ⟨S1048576x48, .i32⟩) main_call2_v4) (TRef.of (T := ⟨S1048576x48x1, .i32⟩) main_call2_v5) rfl shapeCasts_S1048576x48_S1048576x48x1,
    TRef.nullary (TRef.of (T := ⟨S1, .i32⟩) main_call2_c_1) (constantI S1 32 90#32),
    TRef.nullary (TRef.of (T := ⟨S_, .i32⟩) main_call2_c_2) (constantI S_ 32 0#32),
    TRef.unary (TRef.of (T := ⟨S_, .i32⟩) main_call2_c_2) (TRef.of (T := ⟨S1048576x48x1, .i32⟩) main_call2_v6) (broadcastInDim S1048576x48x1 ![] bcast_S_S1048576x48x1),
    TRef.binary (TRef.of (T := ⟨S1048576x48x1, .i32⟩) main_call2_v5) (TRef.of (T := ⟨S1048576x48x1, .i32⟩) main_call2_v6) (TRef.of (T := ⟨S1048576x48x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1048576x48x1, .i32⟩) main_call2_v9) (broadcastInDim S1048576x48x1 ![0, 1, 2] bcast_S1x1x1_S1048576x48x1_0_1_2),
    TRef.binary (TRef.of (T := ⟨S1048576x48x1, .i32⟩) main_call2_v5) (TRef.of (T := ⟨S1048576x48x1, .i32⟩) main_call2_v9) (TRef.of (T := ⟨S1048576x48x1, .i1⟩) main_call2_v10) (cmpi .sle),
    TRef.binary (TRef.of (T := ⟨S1048576x48x1, .i1⟩) main_call2_v7) (TRef.of (T := ⟨S1048576x48x1, .i1⟩) main_call2_v10) (TRef.of (T := ⟨S1048576x48x1, .i1⟩) main_call2_v11) andi,
    TRef.nullary (TRef.of (T := ⟨S_, .i1⟩) main_call2_c_3) (constantI S_ 1 1#1),
    TRef.binary (TRef.of (T := ⟨S1048576x48x1, .i1⟩) main_call2_v11) (TRef.of (T := ⟨S_, .i1⟩) main_call2_c_3) (TRef.of (T := ⟨S1048576x48, .i1⟩) main_call2_v12) (fun x v => Host.reduce IntOp.andi x v reducesTo_S1048576x48x1_S1048576x48_d2 h_S_),
    TRef.binary (TRef.of (T := ⟨S91x48, .f32⟩) main_arg1) (TRef.of (T := ⟨S1048576x48x1, .i32⟩) main_call2_v5) (TRef.of (T := ⟨S1048576x48, .f32⟩) main_call2_v13) (fun x i => Host.gather gather_S91x48_S1048576x48x1_S1048576x48_n_0_1_1_0_2_11 x i),
    TRef.nullary (TRef.of (T := ⟨S_, .f32⟩) main_call2_cst) (constant S_ .f32 0x7FC00000#32),
    TRef.unary (TRef.of (T := ⟨S_, .f32⟩) main_call2_cst) (TRef.of (T := ⟨S1048576x48, .f32⟩) main_call2_v14) (broadcastInDim S1048576x48 ![] bcast_S_S1048576x48),
    TRef.ternary (TRef.of (T := ⟨S1048576x48, .i1⟩) main_call2_v12) (TRef.of (T := ⟨S1048576x48, .f32⟩) main_call2_v13) (TRef.of (T := ⟨S1048576x48, .f32⟩) main_call2_v14) (TRef.of (T := ⟨S1048576x48, .f32⟩) main_v12) select,
    TRef.nullary (TRef.of (T := ⟨S_, .i32⟩) main_call3_c) (constantI S_ 32 0#32),
    TRef.unary (TRef.of (T := ⟨S_, .i32⟩) main_call3_c) (TRef.of (T := ⟨S1048576x48, .i32⟩) main_call3_v0) (broadcastInDim S1048576x48 ![] bcast_S_S1048576x48),
    TRef.binary (TRef.of (T := ⟨S1048576x48, .i32⟩) main_v11) (TRef.of (T := ⟨S1048576x48, .i32⟩) main_call3_v0) (TRef.of (T := ⟨S1048576x48, .i1⟩) main_call3_v1) (cmpi .slt),
    TRef.nullary (TRef.of (T := ⟨S_, .i32⟩) main_call3_c_0) (constantI S_ 32 91#32),
    TRef.unary (TRef.of (T := ⟨S_, .i32⟩) main_call3_c_0) (TRef.of (T := ⟨S1048576x48, .i32⟩) main_call3_v2) (broadcastInDim S1048576x48 ![] bcast_S_S1048576x48),
    TRef.binary (TRef.of (T := ⟨S1048576x48, .i32⟩) main_v11) (TRef.of (T := ⟨S1048576x48, .i32⟩) main_call3_v2) (TRef.of (T := ⟨S1048576x48, .i32⟩) main_call3_v3) addi,
    TRef.ternary (TRef.of (T := ⟨S1048576x48, .i1⟩) main_call3_v1) (TRef.of (T := ⟨S1048576x48, .i32⟩) main_call3_v3) (TRef.of (T := ⟨S1048576x48, .i32⟩) main_v11) (TRef.of (T := ⟨S1048576x48, .i32⟩) main_call3_v4) select,
    TRef.reshape (TRef.of (T := ⟨S1048576x48, .i32⟩) main_call3_v4) (TRef.of (T := ⟨S1048576x48x1, .i32⟩) main_call3_v5) rfl shapeCasts_S1048576x48_S1048576x48x1,
    TRef.nullary (TRef.of (T := ⟨S1, .i32⟩) main_call3_c_1) (constantI S1 32 90#32),
    TRef.nullary (TRef.of (T := ⟨S_, .i32⟩) main_call3_c_2) (constantI S_ 32 0#32),
    TRef.unary (TRef.of (T := ⟨S_, .i32⟩) main_call3_c_2) (TRef.of (T := ⟨S1048576x48x1, .i32⟩) main_call3_v6) (broadcastInDim S1048576x48x1 ![] bcast_S_S1048576x48x1),
    TRef.binary (TRef.of (T := ⟨S1048576x48x1, .i32⟩) main_call3_v5) (TRef.of (T := ⟨S1048576x48x1, .i32⟩) main_call3_v6) (TRef.of (T := ⟨S1048576x48x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S1048576x48x1, .i32⟩) main_call3_v9) (broadcastInDim S1048576x48x1 ![0, 1, 2] bcast_S1x1x1_S1048576x48x1_0_1_2),
    TRef.binary (TRef.of (T := ⟨S1048576x48x1, .i32⟩) main_call3_v5) (TRef.of (T := ⟨S1048576x48x1, .i32⟩) main_call3_v9) (TRef.of (T := ⟨S1048576x48x1, .i1⟩) main_call3_v10) (cmpi .sle),
    TRef.binary (TRef.of (T := ⟨S1048576x48x1, .i1⟩) main_call3_v7) (TRef.of (T := ⟨S1048576x48x1, .i1⟩) main_call3_v10) (TRef.of (T := ⟨S1048576x48x1, .i1⟩) main_call3_v11) andi,
    TRef.nullary (TRef.of (T := ⟨S_, .i1⟩) main_call3_c_3) (constantI S_ 1 1#1),
    TRef.binary (TRef.of (T := ⟨S1048576x48x1, .i1⟩) main_call3_v11) (TRef.of (T := ⟨S_, .i1⟩) main_call3_c_3) (TRef.of (T := ⟨S1048576x48, .i1⟩) main_call3_v12) (fun x v => Host.reduce IntOp.andi x v reducesTo_S1048576x48x1_S1048576x48_d2 h_S_),
    TRef.binary (TRef.of (T := ⟨S91x48, .f32⟩) main_arg1) (TRef.of (T := ⟨S1048576x48x1, .i32⟩) main_call3_v5) (TRef.of (T := ⟨S1048576x48, .f32⟩) main_call3_v13) (fun x i => Host.gather gather_S91x48_S1048576x48x1_S1048576x48_n_0_1_1_0_2_11 x i),
    TRef.nullary (TRef.of (T := ⟨S_, .f32⟩) main_call3_cst) (constant S_ .f32 0x7FC00000#32),
    TRef.unary (TRef.of (T := ⟨S_, .f32⟩) main_call3_cst) (TRef.of (T := ⟨S1048576x48, .f32⟩) main_call3_v14) (broadcastInDim S1048576x48 ![] bcast_S_S1048576x48),
    TRef.ternary (TRef.of (T := ⟨S1048576x48, .i1⟩) main_call3_v12) (TRef.of (T := ⟨S1048576x48, .f32⟩) main_call3_v13) (TRef.of (T := ⟨S1048576x48, .f32⟩) main_call3_v14) (TRef.of (T := ⟨S1048576x48, .f32⟩) main_v13) select,
    nullary main_cst_5 (constant S_ .f32 0x3F800000#32),
    unary main_cst_5 main_v14 (broadcastInDim S1048576x48 ![] bcast_S_S1048576x48 : (⟨S_, .f32⟩ : BufTy).Contents (Elt F) → (⟨S1048576x48, .f32⟩ : BufTy).Contents (Elt F)),
    binary main_v14 main_v7 main_v15 (subf : (⟨S1048576x48, .f32⟩ : BufTy).Contents (Elt F) → (⟨S1048576x48, .f32⟩ : BufTy).Contents (Elt F) → (⟨S1048576x48, .f32⟩ : BufTy).Contents (Elt F)),
    binary main_v12 main_v15 main_v16 (mulf : (⟨S1048576x48, .f32⟩ : BufTy).Contents (Elt F) → (⟨S1048576x48, .f32⟩ : BufTy).Contents (Elt F) → (⟨S1048576x48, .f32⟩ : BufTy).Contents (Elt F)),
    binary main_v7 main_v13 main_v17 (mulf : (⟨S1048576x48, .f32⟩ : BufTy).Contents (Elt F) → (⟨S1048576x48, .f32⟩ : BufTy).Contents (Elt F) → (⟨S1048576x48, .f32⟩ : BufTy).Contents (Elt F)),
    binary main_v16 main_v17 main_v18 (addf : (⟨S1048576x48, .f32⟩ : BufTy).Contents (Elt F) → (⟨S1048576x48, .f32⟩ : BufTy).Contents (Elt F) → (⟨S1048576x48, .f32⟩ : BufTy).Contents (Elt F)),
    reshape main_v18 main_v19 rfl shapeCasts_S1048576x48_S16x256x256x48 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., binary_bufs_sub .., binary_bufs_sub .., binary_bufs_sub .., reshape_bufs_sub ..⟩

/-- The same 80 operations with every inlined operation spelt with the builder @main's own operations use: an inlined
    operation's typed references only wrap its function in casts along the (reflexive) equation between a buffer's type
    and its value's. -/
abbrev opsP : List (HloOp τ sig (Elt F)) :=
  [ reshape main_arg0 main_v0 rfl shapeCasts_S16x256x256x48_S1048576x48,
    nullary main_cst (constant S_ .f32 0xC0400000#32),
    unary main_cst main_v1 (broadcastInDim S1048576x48 ![] bcast_S_S1048576x48 : (⟨S_, .f32⟩ : BufTy).Contents (Elt F) → (⟨S1048576x48, .f32⟩ : BufTy).Contents (Elt F)),
    binary main_v0 main_v1 main_v2 (subf : (⟨S1048576x48, .f32⟩ : BufTy).Contents (Elt F) → (⟨S1048576x48, .f32⟩ : BufTy).Contents (Elt F) → (⟨S1048576x48, .f32⟩ : BufTy).Contents (Elt F)),
    nullary main_cst_0 (constant S_ .f32 0x3D888889#32),
    unary main_cst_0 main_v3 (broadcastInDim S1048576x48 ![] bcast_S_S1048576x48 : (⟨S_, .f32⟩ : BufTy).Contents (Elt F) → (⟨S1048576x48, .f32⟩ : BufTy).Contents (Elt F)),
    binary main_v2 main_v3 main_v4 (Host.divf : (⟨S1048576x48, .f32⟩ : BufTy).Contents (Elt F) → (⟨S1048576x48, .f32⟩ : BufTy).Contents (Elt F) → (⟨S1048576x48, .f32⟩ : BufTy).Contents (Elt F)),
    nullary main_cst_1 (constant S_ .f32 0x3727C5AC#32),
    nullary main_cst_2 (constant S_ .f32 0x42B3FFFF#32),
    unary main_cst_1 main_call0_v0 (id : (⟨S_, .f32⟩ : BufTy).Contents (Elt F) → (⟨S_, .f32⟩ : BufTy).Contents (Elt F)),
    unary main_call0_v0 main_call0_v1 ((broadcastInDim S1048576x48 ![] bcast_S_S1048576x48) : (⟨S_, .f32⟩ : BufTy).Contents (Elt F) → (⟨S1048576x48, .f32⟩ : BufTy).Contents (Elt F)),
    binary main_call0_v1 main_v4 main_call0_v2 (maximumf : (⟨S1048576x48, .f32⟩ : BufTy).Contents (Elt F) → (⟨S1048576x48, .f32⟩ : BufTy).Contents (Elt F) → (⟨S1048576x48, .f32⟩ : BufTy).Contents (Elt F)),
    unary main_cst_2 main_call0_v3 (id : (⟨S_, .f32⟩ : BufTy).Contents (Elt F) → (⟨S_, .f32⟩ : BufTy).Contents (Elt F)),
    unary main_call0_v3 main_call0_v4 ((broadcastInDim S1048576x48 ![] bcast_S_S1048576x48) : (⟨S_, .f32⟩ : BufTy).Contents (Elt F) → (⟨S1048576x48, .f32⟩ : BufTy).Contents (Elt F)),
    binary main_call0_v4 main_call0_v2 main_v5 (minimumf : (⟨S1048576x48, .f32⟩ : BufTy).Contents (Elt F) → (⟨S1048576x48, .f32⟩ : BufTy).Contents (Elt F) → (⟨S1048576x48, .f32⟩ : BufTy).Contents (Elt F)),
    unary main_v5 main_v6 (Host.floor : (⟨S1048576x48, .f32⟩ : BufTy).Contents (Elt F) → (⟨S1048576x48, .f32⟩ : BufTy).Contents (Elt F)),
    binary main_v5 main_v6 main_v7 (subf : (⟨S1048576x48, .f32⟩ : BufTy).Contents (Elt F) → (⟨S1048576x48, .f32⟩ : BufTy).Contents (Elt F) → (⟨S1048576x48, .f32⟩ : BufTy).Contents (Elt F)),
    unary main_v6 main_v8 (fptosi 32 : (⟨S1048576x48, .f32⟩ : BufTy).Contents (Elt F) → (⟨S1048576x48, .i32⟩ : BufTy).Contents (Elt F)),
    nullary main_c (constantI S_ 32 0#32),
    nullary main_c_3 (constantI S_ 32 89#32),
    unary main_c main_call1_v0 (id : (⟨S_, .i32⟩ : BufTy).Contents (Elt F) → (⟨S_, .i32⟩ : BufTy).Contents (Elt F)),
    unary main_call1_v0 main_call1_v1 ((broadcastInDim S1048576x48 ![] bcast_S_S1048576x48) : (⟨S_, .i32⟩ : BufTy).Contents (Elt F) → (⟨S1048576x48, .i32⟩ : BufTy).Contents (Elt F)),
    binary main_call1_v1 main_v8 main_call1_v2 (maxsi : (⟨S1048576x48, .i32⟩ : BufTy).Contents (Elt F) → (⟨S1048576x48, .i32⟩ : BufTy).Contents (Elt F) → (⟨S1048576x48, .i32⟩ : BufTy).Contents (Elt F)),
    unary main_c_3 main_call1_v3 (id : (⟨S_, .i32⟩ : BufTy).Contents (Elt F) → (⟨S_, .i32⟩ : BufTy).Contents (Elt F)),
    unary main_call1_v3 main_call1_v4 ((broadcastInDim S1048576x48 ![] bcast_S_S1048576x48) : (⟨S_, .i32⟩ : BufTy).Contents (Elt F) → (⟨S1048576x48, .i32⟩ : BufTy).Contents (Elt F)),
    binary main_call1_v4 main_call1_v2 main_v9 (minsi : (⟨S1048576x48, .i32⟩ : BufTy).Contents (Elt F) → (⟨S1048576x48, .i32⟩ : BufTy).Contents (Elt F) → (⟨S1048576x48, .i32⟩ : BufTy).Contents (Elt F)),
    nullary main_c_4 (constantI S_ 32 1#32),
    unary main_c_4 main_v10 (broadcastInDim S1048576x48 ![] bcast_S_S1048576x48 : (⟨S_, .i32⟩ : BufTy).Contents (Elt F) → (⟨S1048576x48, .i32⟩ : BufTy).Contents (Elt F)),
    binary main_v9 main_v10 main_v11 (addi : (⟨S1048576x48, .i32⟩ : BufTy).Contents (Elt F) → (⟨S1048576x48, .i32⟩ : BufTy).Contents (Elt F) → (⟨S1048576x48, .i32⟩ : BufTy).Contents (Elt F)),
    nullary main_call2_c ((constantI S_ 32 0#32) : (⟨S_, .i32⟩ : BufTy).Contents (Elt F)),
    unary main_call2_c main_call2_v0 ((broadcastInDim S1048576x48 ![] bcast_S_S1048576x48) : (⟨S_, .i32⟩ : BufTy).Contents (Elt F) → (⟨S1048576x48, .i32⟩ : BufTy).Contents (Elt F)),
    binary main_v9 main_call2_v0 main_call2_v1 ((cmpi .slt) : (⟨S1048576x48, .i32⟩ : BufTy).Contents (Elt F) → (⟨S1048576x48, .i32⟩ : BufTy).Contents (Elt F) → (⟨S1048576x48, .i1⟩ : BufTy).Contents (Elt F)),
    nullary main_call2_c_0 ((constantI S_ 32 91#32) : (⟨S_, .i32⟩ : BufTy).Contents (Elt F)),
    unary main_call2_c_0 main_call2_v2 ((broadcastInDim S1048576x48 ![] bcast_S_S1048576x48) : (⟨S_, .i32⟩ : BufTy).Contents (Elt F) → (⟨S1048576x48, .i32⟩ : BufTy).Contents (Elt F)),
    binary main_v9 main_call2_v2 main_call2_v3 (addi : (⟨S1048576x48, .i32⟩ : BufTy).Contents (Elt F) → (⟨S1048576x48, .i32⟩ : BufTy).Contents (Elt F) → (⟨S1048576x48, .i32⟩ : BufTy).Contents (Elt F)),
    ternary main_call2_v1 main_call2_v3 main_v9 main_call2_v4 (select : (⟨S1048576x48, .i1⟩ : BufTy).Contents (Elt F) → (⟨S1048576x48, .i32⟩ : BufTy).Contents (Elt F) → (⟨S1048576x48, .i32⟩ : BufTy).Contents (Elt F) → (⟨S1048576x48, .i32⟩ : BufTy).Contents (Elt F)),
    reshape main_call2_v4 main_call2_v5 rfl shapeCasts_S1048576x48_S1048576x48x1,
    nullary main_call2_c_1 ((constantI S1 32 90#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S1048576x48x1 ![] bcast_S_S1048576x48x1) : (⟨S_, .i32⟩ : BufTy).Contents (Elt F) → (⟨S1048576x48x1, .i32⟩ : BufTy).Contents (Elt F)),
    binary main_call2_v5 main_call2_v6 main_call2_v7 ((cmpi .sge) : (⟨S1048576x48x1, .i32⟩ : BufTy).Contents (Elt F) → (⟨S1048576x48x1, .i32⟩ : BufTy).Contents (Elt F) → (⟨S1048576x48x1, .i1⟩ : BufTy).Contents (Elt F)),
    unary main_call2_c_1 main_call2_v8 ((broadcastInDim S1x1x1 ![2] bcast_S1_S1x1x1_2) : (⟨S1, .i32⟩ : BufTy).Contents (Elt F) → (⟨S1x1x1, .i32⟩ : BufTy).Contents (Elt F)),
    unary main_call2_v8 main_call2_v9 ((broadcastInDim S1048576x48x1 ![0, 1, 2] bcast_S1x1x1_S1048576x48x1_0_1_2) : (⟨S1x1x1, .i32⟩ : BufTy).Contents (Elt F) → (⟨S1048576x48x1, .i32⟩ : BufTy).Contents (Elt F)),
    binary main_call2_v5 main_call2_v9 main_call2_v10 ((cmpi .sle) : (⟨S1048576x48x1, .i32⟩ : BufTy).Contents (Elt F) → (⟨S1048576x48x1, .i32⟩ : BufTy).Contents (Elt F) → (⟨S1048576x48x1, .i1⟩ : BufTy).Contents (Elt F)),
    binary main_call2_v7 main_call2_v10 main_call2_v11 (andi : (⟨S1048576x48x1, .i1⟩ : BufTy).Contents (Elt F) → (⟨S1048576x48x1, .i1⟩ : BufTy).Contents (Elt F) → (⟨S1048576x48x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S1048576x48x1_S1048576x48_d2 h_S_) : (⟨S1048576x48x1, .i1⟩ : BufTy).Contents (Elt F) → (⟨S_, .i1⟩ : BufTy).Contents (Elt F) → (⟨S1048576x48, .i1⟩ : BufTy).Contents (Elt F)),
    binary main_arg1 main_call2_v5 main_call2_v13 ((fun x i => Host.gather gather_S91x48_S1048576x48x1_S1048576x48_n_0_1_1_0_2_11 x i) : (⟨S91x48, .f32⟩ : BufTy).Contents (Elt F) → (⟨S1048576x48x1, .i32⟩ : BufTy).Contents (Elt F) → (⟨S1048576x48, .f32⟩ : BufTy).Contents (Elt F)),
    nullary main_call2_cst ((constant S_ .f32 0x7FC00000#32) : (⟨S_, .f32⟩ : BufTy).Contents (Elt F)),
    unary main_call2_cst main_call2_v14 ((broadcastInDim S1048576x48 ![] bcast_S_S1048576x48) : (⟨S_, .f32⟩ : BufTy).Contents (Elt F) → (⟨S1048576x48, .f32⟩ : BufTy).Contents (Elt F)),
    ternary main_call2_v12 main_call2_v13 main_call2_v14 main_v12 (select : (⟨S1048576x48, .i1⟩ : BufTy).Contents (Elt F) → (⟨S1048576x48, .f32⟩ : BufTy).Contents (Elt F) → (⟨S1048576x48, .f32⟩ : BufTy).Contents (Elt F) → (⟨S1048576x48, .f32⟩ : BufTy).Contents (Elt F)),
    nullary main_call3_c ((constantI S_ 32 0#32) : (⟨S_, .i32⟩ : BufTy).Contents (Elt F)),
    unary main_call3_c main_call3_v0 ((broadcastInDim S1048576x48 ![] bcast_S_S1048576x48) : (⟨S_, .i32⟩ : BufTy).Contents (Elt F) → (⟨S1048576x48, .i32⟩ : BufTy).Contents (Elt F)),
    binary main_v11 main_call3_v0 main_call3_v1 ((cmpi .slt) : (⟨S1048576x48, .i32⟩ : BufTy).Contents (Elt F) → (⟨S1048576x48, .i32⟩ : BufTy).Contents (Elt F) → (⟨S1048576x48, .i1⟩ : BufTy).Contents (Elt F)),
    nullary main_call3_c_0 ((constantI S_ 32 91#32) : (⟨S_, .i32⟩ : BufTy).Contents (Elt F)),
    unary main_call3_c_0 main_call3_v2 ((broadcastInDim S1048576x48 ![] bcast_S_S1048576x48) : (⟨S_, .i32⟩ : BufTy).Contents (Elt F) → (⟨S1048576x48, .i32⟩ : BufTy).Contents (Elt F)),
    binary main_v11 main_call3_v2 main_call3_v3 (addi : (⟨S1048576x48, .i32⟩ : BufTy).Contents (Elt F) → (⟨S1048576x48, .i32⟩ : BufTy).Contents (Elt F) → (⟨S1048576x48, .i32⟩ : BufTy).Contents (Elt F)),
    ternary main_call3_v1 main_call3_v3 main_v11 main_call3_v4 (select : (⟨S1048576x48, .i1⟩ : BufTy).Contents (Elt F) → (⟨S1048576x48, .i32⟩ : BufTy).Contents (Elt F) → (⟨S1048576x48, .i32⟩ : BufTy).Contents (Elt F) → (⟨S1048576x48, .i32⟩ : BufTy).Contents (Elt F)),
    reshape main_call3_v4 main_call3_v5 rfl shapeCasts_S1048576x48_S1048576x48x1,
    nullary main_call3_c_1 ((constantI S1 32 90#32) : (⟨S1, .i32⟩ : BufTy).Contents (Elt F)),
    nullary main_call3_c_2 ((constantI S_ 32 0#32) : (⟨S_, .i32⟩ : BufTy).Contents (Elt F)),
    unary main_call3_c_2 main_call3_v6 ((broadcastInDim S1048576x48x1 ![] bcast_S_S1048576x48x1) : (⟨S_, .i32⟩ : BufTy).Contents (Elt F) → (⟨S1048576x48x1, .i32⟩ : BufTy).Contents (Elt F)),
    binary main_call3_v5 main_call3_v6 main_call3_v7 ((cmpi .sge) : (⟨S1048576x48x1, .i32⟩ : BufTy).Contents (Elt F) → (⟨S1048576x48x1, .i32⟩ : BufTy).Contents (Elt F) → (⟨S1048576x48x1, .i1⟩ : BufTy).Contents (Elt F)),
    unary main_call3_c_1 main_call3_v8 ((broadcastInDim S1x1x1 ![2] bcast_S1_S1x1x1_2) : (⟨S1, .i32⟩ : BufTy).Contents (Elt F) → (⟨S1x1x1, .i32⟩ : BufTy).Contents (Elt F)),
    unary main_call3_v8 main_call3_v9 ((broadcastInDim S1048576x48x1 ![0, 1, 2] bcast_S1x1x1_S1048576x48x1_0_1_2) : (⟨S1x1x1, .i32⟩ : BufTy).Contents (Elt F) → (⟨S1048576x48x1, .i32⟩ : BufTy).Contents (Elt F)),
    binary main_call3_v5 main_call3_v9 main_call3_v10 ((cmpi .sle) : (⟨S1048576x48x1, .i32⟩ : BufTy).Contents (Elt F) → (⟨S1048576x48x1, .i32⟩ : BufTy).Contents (Elt F) → (⟨S1048576x48x1, .i1⟩ : BufTy).Contents (Elt F)),
    binary main_call3_v7 main_call3_v10 main_call3_v11 (andi : (⟨S1048576x48x1, .i1⟩ : BufTy).Contents (Elt F) → (⟨S1048576x48x1, .i1⟩ : BufTy).Contents (Elt F) → (⟨S1048576x48x1, .i1⟩ : BufTy).Contents (Elt F)),
    nullary main_call3_c_3 ((constantI S_ 1 1#1) : (⟨S_, .i1⟩ : BufTy).Contents (Elt F)),
    binary main_call3_v11 main_call3_c_3 main_call3_v12 ((fun x v => Host.reduce IntOp.andi x v reducesTo_S1048576x48x1_S1048576x48_d2 h_S_) : (⟨S1048576x48x1, .i1⟩ : BufTy).Contents (Elt F) → (⟨S_, .i1⟩ : BufTy).Contents (Elt F) → (⟨S1048576x48, .i1⟩ : BufTy).Contents (Elt F)),
    binary main_arg1 main_call3_v5 main_call3_v13 ((fun x i => Host.gather gather_S91x48_S1048576x48x1_S1048576x48_n_0_1_1_0_2_11 x i) : (⟨S91x48, .f32⟩ : BufTy).Contents (Elt F) → (⟨S1048576x48x1, .i32⟩ : BufTy).Contents (Elt F) → (⟨S1048576x48, .f32⟩ : BufTy).Contents (Elt F)),
    nullary main_call3_cst ((constant S_ .f32 0x7FC00000#32) : (⟨S_, .f32⟩ : BufTy).Contents (Elt F)),
    unary main_call3_cst main_call3_v14 ((broadcastInDim S1048576x48 ![] bcast_S_S1048576x48) : (⟨S_, .f32⟩ : BufTy).Contents (Elt F) → (⟨S1048576x48, .f32⟩ : BufTy).Contents (Elt F)),
    ternary main_call3_v12 main_call3_v13 main_call3_v14 main_v13 (select : (⟨S1048576x48, .i1⟩ : BufTy).Contents (Elt F) → (⟨S1048576x48, .f32⟩ : BufTy).Contents (Elt F) → (⟨S1048576x48, .f32⟩ : BufTy).Contents (Elt F) → (⟨S1048576x48, .f32⟩ : BufTy).Contents (Elt F)),
    nullary main_cst_5 (constant S_ .f32 0x3F800000#32),
    unary main_cst_5 main_v14 (broadcastInDim S1048576x48 ![] bcast_S_S1048576x48 : (⟨S_, .f32⟩ : BufTy).Contents (Elt F) → (⟨S1048576x48, .f32⟩ : BufTy).Contents (Elt F)),
    binary main_v14 main_v7 main_v15 (subf : (⟨S1048576x48, .f32⟩ : BufTy).Contents (Elt F) → (⟨S1048576x48, .f32⟩ : BufTy).Contents (Elt F) → (⟨S1048576x48, .f32⟩ : BufTy).Contents (Elt F)),
    binary main_v12 main_v15 main_v16 (mulf : (⟨S1048576x48, .f32⟩ : BufTy).Contents (Elt F) → (⟨S1048576x48, .f32⟩ : BufTy).Contents (Elt F) → (⟨S1048576x48, .f32⟩ : BufTy).Contents (Elt F)),
    binary main_v7 main_v13 main_v17 (mulf : (⟨S1048576x48, .f32⟩ : BufTy).Contents (Elt F) → (⟨S1048576x48, .f32⟩ : BufTy).Contents (Elt F) → (⟨S1048576x48, .f32⟩ : BufTy).Contents (Elt F)),
    binary main_v16 main_v17 main_v18 (addf : (⟨S1048576x48, .f32⟩ : BufTy).Contents (Elt F) → (⟨S1048576x48, .f32⟩ : BufTy).Contents (Elt F) → (⟨S1048576x48, .f32⟩ : BufTy).Contents (Elt F)),
    reshape main_v18 main_v19 rfl shapeCasts_S1048576x48_S16x256x256x48 ]

/-! Operation by operation, for ANY function in the operation's place (so that nothing of the function is opened): the
typed-reference builder at literal references is the plain builder. -/
theorem e_9 (g : (⟨S_, .f32⟩ : BufTy).Contents (Elt F) → (⟨S_, .f32⟩ : BufTy).Contents (Elt F)) :
    (TRef.unary (TRef.of (T := ⟨S_, .f32⟩) main_cst_1) (TRef.of (T := ⟨S_, .f32⟩) main_call0_v0) g : HloOp τ sig (Elt F)) = unary main_cst_1 main_call0_v0 g := rfl
theorem e_10 (g : (⟨S_, .f32⟩ : BufTy).Contents (Elt F) → (⟨S1048576x48, .f32⟩ : BufTy).Contents (Elt F)) :
    (TRef.unary (TRef.of (T := ⟨S_, .f32⟩) main_call0_v0) (TRef.of (T := ⟨S1048576x48, .f32⟩) main_call0_v1) g : HloOp τ sig (Elt F)) = unary main_call0_v0 main_call0_v1 g := rfl
theorem e_11 (g : (⟨S1048576x48, .f32⟩ : BufTy).Contents (Elt F) → (⟨S1048576x48, .f32⟩ : BufTy).Contents (Elt F) → (⟨S1048576x48, .f32⟩ : BufTy).Contents (Elt F)) :
    (TRef.binary (TRef.of (T := ⟨S1048576x48, .f32⟩) main_call0_v1) (TRef.of (T := ⟨S1048576x48, .f32⟩) main_v4) (TRef.of (T := ⟨S1048576x48, .f32⟩) main_call0_v2) g : HloOp τ sig (Elt F)) = binary main_call0_v1 main_v4 main_call0_v2 g := rfl
theorem e_12 (g : (⟨S_, .f32⟩ : BufTy).Contents (Elt F) → (⟨S_, .f32⟩ : BufTy).Contents (Elt F)) :
    (TRef.unary (TRef.of (T := ⟨S_, .f32⟩) main_cst_2) (TRef.of (T := ⟨S_, .f32⟩) main_call0_v3) g : HloOp τ sig (Elt F)) = unary main_cst_2 main_call0_v3 g := rfl
theorem e_13 (g : (⟨S_, .f32⟩ : BufTy).Contents (Elt F) → (⟨S1048576x48, .f32⟩ : BufTy).Contents (Elt F)) :
    (TRef.unary (TRef.of (T := ⟨S_, .f32⟩) main_call0_v3) (TRef.of (T := ⟨S1048576x48, .f32⟩) main_call0_v4) g : HloOp τ sig (Elt F)) = unary main_call0_v3 main_call0_v4 g := rfl
theorem e_14 (g : (⟨S1048576x48, .f32⟩ : BufTy).Contents (Elt F) → (⟨S1048576x48, .f32⟩ : BufTy).Contents (Elt F) → (⟨S1048576x48, .f32⟩ : BufTy).Contents (Elt F)) :
    (TRef.binary (TRef.of (T := ⟨S1048576x48, .f32⟩) main_call0_v4) (TRef.of (T := ⟨S1048576x48, .f32⟩) main_call0_v2) (TRef.of (T := ⟨S1048576x48, .f32⟩) main_v5) g : HloOp τ sig (Elt F)) = binary main_call0_v4 main_call0_v2 main_v5 g := rfl
theorem e_20 (g : (⟨S_, .i32⟩ : BufTy).Contents (Elt F) → (⟨S_, .i32⟩ : BufTy).Contents (Elt F)) :
    (TRef.unary (TRef.of (T := ⟨S_, .i32⟩) main_c) (TRef.of (T := ⟨S_, .i32⟩) main_call1_v0) g : HloOp τ sig (Elt F)) = unary main_c main_call1_v0 g := rfl
theorem e_21 (g : (⟨S_, .i32⟩ : BufTy).Contents (Elt F) → (⟨S1048576x48, .i32⟩ : BufTy).Contents (Elt F)) :
    (TRef.unary (TRef.of (T := ⟨S_, .i32⟩) main_call1_v0) (TRef.of (T := ⟨S1048576x48, .i32⟩) main_call1_v1) g : HloOp τ sig (Elt F)) = unary main_call1_v0 main_call1_v1 g := rfl
theorem e_22 (g : (⟨S1048576x48, .i32⟩ : BufTy).Contents (Elt F) → (⟨S1048576x48, .i32⟩ : BufTy).Contents (Elt F) → (⟨S1048576x48, .i32⟩ : BufTy).Contents (Elt F)) :
    (TRef.binary (TRef.of (T := ⟨S1048576x48, .i32⟩) main_call1_v1) (TRef.of (T := ⟨S1048576x48, .i32⟩) main_v8) (TRef.of (T := ⟨S1048576x48, .i32⟩) main_call1_v2) g : HloOp τ sig (Elt F)) = binary main_call1_v1 main_v8 main_call1_v2 g := rfl
theorem e_23 (g : (⟨S_, .i32⟩ : BufTy).Contents (Elt F) → (⟨S_, .i32⟩ : BufTy).Contents (Elt F)) :
    (TRef.unary (TRef.of (T := ⟨S_, .i32⟩) main_c_3) (TRef.of (T := ⟨S_, .i32⟩) main_call1_v3) g : HloOp τ sig (Elt F)) = unary main_c_3 main_call1_v3 g := rfl
theorem e_24 (g : (⟨S_, .i32⟩ : BufTy).Contents (Elt F) → (⟨S1048576x48, .i32⟩ : BufTy).Contents (Elt F)) :
    (TRef.unary (TRef.of (T := ⟨S_, .i32⟩) main_call1_v3) (TRef.of (T := ⟨S1048576x48, .i32⟩) main_call1_v4) g : HloOp τ sig (Elt F)) = unary main_call1_v3 main_call1_v4 g := rfl
theorem e_25 (g : (⟨S1048576x48, .i32⟩ : BufTy).Contents (Elt F) → (⟨S1048576x48, .i32⟩ : BufTy).Contents (Elt F) → (⟨S1048576x48, .i32⟩ : BufTy).Contents (Elt F)) :
    (TRef.binary (TRef.of (T := ⟨S1048576x48, .i32⟩) main_call1_v4) (TRef.of (T := ⟨S1048576x48, .i32⟩) main_call1_v2) (TRef.of (T := ⟨S1048576x48, .i32⟩) main_v9) g : HloOp τ sig (Elt F)) = binary main_call1_v4 main_call1_v2 main_v9 g := rfl
theorem e_29 (g : (⟨S_, .i32⟩ : BufTy).Contents (Elt F)) :
    (TRef.nullary (TRef.of (T := ⟨S_, .i32⟩) main_call2_c) g : HloOp τ sig (Elt F)) = nullary main_call2_c g := rfl
theorem e_30 (g : (⟨S_, .i32⟩ : BufTy).Contents (Elt F) → (⟨S1048576x48, .i32⟩ : BufTy).Contents (Elt F)) :
    (TRef.unary (TRef.of (T := ⟨S_, .i32⟩) main_call2_c) (TRef.of (T := ⟨S1048576x48, .i32⟩) main_call2_v0) g : HloOp τ sig (Elt F)) = unary main_call2_c main_call2_v0 g := rfl
theorem e_31 (g : (⟨S1048576x48, .i32⟩ : BufTy).Contents (Elt F) → (⟨S1048576x48, .i32⟩ : BufTy).Contents (Elt F) → (⟨S1048576x48, .i1⟩ : BufTy).Contents (Elt F)) :
    (TRef.binary (TRef.of (T := ⟨S1048576x48, .i32⟩) main_v9) (TRef.of (T := ⟨S1048576x48, .i32⟩) main_call2_v0) (TRef.of (T := ⟨S1048576x48, .i1⟩) main_call2_v1) g : HloOp τ sig (Elt F)) = binary main_v9 main_call2_v0 main_call2_v1 g := rfl
theorem e_32 (g : (⟨S_, .i32⟩ : BufTy).Contents (Elt F)) :
    (TRef.nullary (TRef.of (T := ⟨S_, .i32⟩) main_call2_c_0) g : HloOp τ sig (Elt F)) = nullary main_call2_c_0 g := rfl
theorem e_33 (g : (⟨S_, .i32⟩ : BufTy).Contents (Elt F) → (⟨S1048576x48, .i32⟩ : BufTy).Contents (Elt F)) :
    (TRef.unary (TRef.of (T := ⟨S_, .i32⟩) main_call2_c_0) (TRef.of (T := ⟨S1048576x48, .i32⟩) main_call2_v2) g : HloOp τ sig (Elt F)) = unary main_call2_c_0 main_call2_v2 g := rfl
theorem e_34 (g : (⟨S1048576x48, .i32⟩ : BufTy).Contents (Elt F) → (⟨S1048576x48, .i32⟩ : BufTy).Contents (Elt F) → (⟨S1048576x48, .i32⟩ : BufTy).Contents (Elt F)) :
    (TRef.binary (TRef.of (T := ⟨S1048576x48, .i32⟩) main_v9) (TRef.of (T := ⟨S1048576x48, .i32⟩) main_call2_v2) (TRef.of (T := ⟨S1048576x48, .i32⟩) main_call2_v3) g : HloOp τ sig (Elt F)) = binary main_v9 main_call2_v2 main_call2_v3 g := rfl
theorem e_35 (g : (⟨S1048576x48, .i1⟩ : BufTy).Contents (Elt F) → (⟨S1048576x48, .i32⟩ : BufTy).Contents (Elt F) → (⟨S1048576x48, .i32⟩ : BufTy).Contents (Elt F) → (⟨S1048576x48, .i32⟩ : BufTy).Contents (Elt F)) :
    (TRef.ternary (TRef.of (T := ⟨S1048576x48, .i1⟩) main_call2_v1) (TRef.of (T := ⟨S1048576x48, .i32⟩) main_call2_v3) (TRef.of (T := ⟨S1048576x48, .i32⟩) main_v9) (TRef.of (T := ⟨S1048576x48, .i32⟩) main_call2_v4) g : HloOp τ sig (Elt F)) = ternary main_call2_v1 main_call2_v3 main_v9 main_call2_v4 g := rfl
theorem e_36 :
    (TRef.reshape (TRef.of (T := ⟨S1048576x48, .i32⟩) main_call2_v4) (TRef.of (T := ⟨S1048576x48x1, .i32⟩) main_call2_v5) rfl shapeCasts_S1048576x48_S1048576x48x1 : HloOp τ sig (Elt F)) = reshape main_call2_v4 main_call2_v5 rfl shapeCasts_S1048576x48_S1048576x48x1 := rfl
theorem e_37 (g : (⟨S1, .i32⟩ : BufTy).Contents (Elt F)) :
    (TRef.nullary (TRef.of (T := ⟨S1, .i32⟩) main_call2_c_1) g : HloOp τ sig (Elt F)) = nullary main_call2_c_1 g := rfl
theorem e_38 (g : (⟨S_, .i32⟩ : BufTy).Contents (Elt F)) :
    (TRef.nullary (TRef.of (T := ⟨S_, .i32⟩) main_call2_c_2) g : HloOp τ sig (Elt F)) = nullary main_call2_c_2 g := rfl
theorem e_39 (g : (⟨S_, .i32⟩ : BufTy).Contents (Elt F) → (⟨S1048576x48x1, .i32⟩ : BufTy).Contents (Elt F)) :
    (TRef.unary (TRef.of (T := ⟨S_, .i32⟩) main_call2_c_2) (TRef.of (T := ⟨S1048576x48x1, .i32⟩) main_call2_v6) g : HloOp τ sig (Elt F)) = unary main_call2_c_2 main_call2_v6 g := rfl
theorem e_40 (g : (⟨S1048576x48x1, .i32⟩ : BufTy).Contents (Elt F) → (⟨S1048576x48x1, .i32⟩ : BufTy).Contents (Elt F) → (⟨S1048576x48x1, .i1⟩ : BufTy).Contents (Elt F)) :
    (TRef.binary (TRef.of (T := ⟨S1048576x48x1, .i32⟩) main_call2_v5) (TRef.of (T := ⟨S1048576x48x1, .i32⟩) main_call2_v6) (TRef.of (T := ⟨S1048576x48x1, .i1⟩) main_call2_v7) g : HloOp τ sig (Elt F)) = binary main_call2_v5 main_call2_v6 main_call2_v7 g := rfl
theorem e_41 (g : (⟨S1, .i32⟩ : BufTy).Contents (Elt F) → (⟨S1x1x1, .i32⟩ : BufTy).Contents (Elt F)) :
    (TRef.unary (TRef.of (T := ⟨S1, .i32⟩) main_call2_c_1) (TRef.of (T := ⟨S1x1x1, .i32⟩) main_call2_v8) g : HloOp τ sig (Elt F)) = unary main_call2_c_1 main_call2_v8 g := rfl
theorem e_42 (g : (⟨S1x1x1, .i32⟩ : BufTy).Contents (Elt F) → (⟨S1048576x48x1, .i32⟩ : BufTy).Contents (Elt F)) :
    (TRef.unary (TRef.of (T := ⟨S1x1x1, .i32⟩) main_call2_v8) (TRef.of (T := ⟨S1048576x48x1, .i32⟩) main_call2_v9) g : HloOp τ sig (Elt F)) = unary main_call2_v8 main_call2_v9 g := rfl
theorem e_43 (g : (⟨S1048576x48x1, .i32⟩ : BufTy).Contents (Elt F) → (⟨S1048576x48x1, .i32⟩ : BufTy).Contents (Elt F) → (⟨S1048576x48x1, .i1⟩ : BufTy).Contents (Elt F)) :
    (TRef.binary (TRef.of (T := ⟨S1048576x48x1, .i32⟩) main_call2_v5) (TRef.of (T := ⟨S1048576x48x1, .i32⟩) main_call2_v9) (TRef.of (T := ⟨S1048576x48x1, .i1⟩) main_call2_v10) g : HloOp τ sig (Elt F)) = binary main_call2_v5 main_call2_v9 main_call2_v10 g := rfl
theorem e_44 (g : (⟨S1048576x48x1, .i1⟩ : BufTy).Contents (Elt F) → (⟨S1048576x48x1, .i1⟩ : BufTy).Contents (Elt F) → (⟨S1048576x48x1, .i1⟩ : BufTy).Contents (Elt F)) :
    (TRef.binary (TRef.of (T := ⟨S1048576x48x1, .i1⟩) main_call2_v7) (TRef.of (T := ⟨S1048576x48x1, .i1⟩) main_call2_v10) (TRef.of (T := ⟨S1048576x48x1, .i1⟩) main_call2_v11) g : HloOp τ sig (Elt F)) = binary main_call2_v7 main_call2_v10 main_call2_v11 g := rfl
theorem e_45 (g : (⟨S_, .i1⟩ : BufTy).Contents (Elt F)) :
    (TRef.nullary (TRef.of (T := ⟨S_, .i1⟩) main_call2_c_3) g : HloOp τ sig (Elt F)) = nullary main_call2_c_3 g := rfl
theorem e_46 (g : (⟨S1048576x48x1, .i1⟩ : BufTy).Contents (Elt F) → (⟨S_, .i1⟩ : BufTy).Contents (Elt F) → (⟨S1048576x48, .i1⟩ : BufTy).Contents (Elt F)) :
    (TRef.binary (TRef.of (T := ⟨S1048576x48x1, .i1⟩) main_call2_v11) (TRef.of (T := ⟨S_, .i1⟩) main_call2_c_3) (TRef.of (T := ⟨S1048576x48, .i1⟩) main_call2_v12) g : HloOp τ sig (Elt F)) = binary main_call2_v11 main_call2_c_3 main_call2_v12 g := rfl
theorem e_47 (g : (⟨S91x48, .f32⟩ : BufTy).Contents (Elt F) → (⟨S1048576x48x1, .i32⟩ : BufTy).Contents (Elt F) → (⟨S1048576x48, .f32⟩ : BufTy).Contents (Elt F)) :
    (TRef.binary (TRef.of (T := ⟨S91x48, .f32⟩) main_arg1) (TRef.of (T := ⟨S1048576x48x1, .i32⟩) main_call2_v5) (TRef.of (T := ⟨S1048576x48, .f32⟩) main_call2_v13) g : HloOp τ sig (Elt F)) = binary main_arg1 main_call2_v5 main_call2_v13 g := rfl
theorem e_48 (g : (⟨S_, .f32⟩ : BufTy).Contents (Elt F)) :
    (TRef.nullary (TRef.of (T := ⟨S_, .f32⟩) main_call2_cst) g : HloOp τ sig (Elt F)) = nullary main_call2_cst g := rfl
theorem e_49 (g : (⟨S_, .f32⟩ : BufTy).Contents (Elt F) → (⟨S1048576x48, .f32⟩ : BufTy).Contents (Elt F)) :
    (TRef.unary (TRef.of (T := ⟨S_, .f32⟩) main_call2_cst) (TRef.of (T := ⟨S1048576x48, .f32⟩) main_call2_v14) g : HloOp τ sig (Elt F)) = unary main_call2_cst main_call2_v14 g := rfl
theorem e_50 (g : (⟨S1048576x48, .i1⟩ : BufTy).Contents (Elt F) → (⟨S1048576x48, .f32⟩ : BufTy).Contents (Elt F) → (⟨S1048576x48, .f32⟩ : BufTy).Contents (Elt F) → (⟨S1048576x48, .f32⟩ : BufTy).Contents (Elt F)) :
    (TRef.ternary (TRef.of (T := ⟨S1048576x48, .i1⟩) main_call2_v12) (TRef.of (T := ⟨S1048576x48, .f32⟩) main_call2_v13) (TRef.of (T := ⟨S1048576x48, .f32⟩) main_call2_v14) (TRef.of (T := ⟨S1048576x48, .f32⟩) main_v12) g : HloOp τ sig (Elt F)) = ternary main_call2_v12 main_call2_v13 main_call2_v14 main_v12 g := rfl
theorem e_51 (g : (⟨S_, .i32⟩ : BufTy).Contents (Elt F)) :
    (TRef.nullary (TRef.of (T := ⟨S_, .i32⟩) main_call3_c) g : HloOp τ sig (Elt F)) = nullary main_call3_c g := rfl
theorem e_52 (g : (⟨S_, .i32⟩ : BufTy).Contents (Elt F) → (⟨S1048576x48, .i32⟩ : BufTy).Contents (Elt F)) :
    (TRef.unary (TRef.of (T := ⟨S_, .i32⟩) main_call3_c) (TRef.of (T := ⟨S1048576x48, .i32⟩) main_call3_v0) g : HloOp τ sig (Elt F)) = unary main_call3_c main_call3_v0 g := rfl
theorem e_53 (g : (⟨S1048576x48, .i32⟩ : BufTy).Contents (Elt F) → (⟨S1048576x48, .i32⟩ : BufTy).Contents (Elt F) → (⟨S1048576x48, .i1⟩ : BufTy).Contents (Elt F)) :
    (TRef.binary (TRef.of (T := ⟨S1048576x48, .i32⟩) main_v11) (TRef.of (T := ⟨S1048576x48, .i32⟩) main_call3_v0) (TRef.of (T := ⟨S1048576x48, .i1⟩) main_call3_v1) g : HloOp τ sig (Elt F)) = binary main_v11 main_call3_v0 main_call3_v1 g := rfl
theorem e_54 (g : (⟨S_, .i32⟩ : BufTy).Contents (Elt F)) :
    (TRef.nullary (TRef.of (T := ⟨S_, .i32⟩) main_call3_c_0) g : HloOp τ sig (Elt F)) = nullary main_call3_c_0 g := rfl
theorem e_55 (g : (⟨S_, .i32⟩ : BufTy).Contents (Elt F) → (⟨S1048576x48, .i32⟩ : BufTy).Contents (Elt F)) :
    (TRef.unary (TRef.of (T := ⟨S_, .i32⟩) main_call3_c_0) (TRef.of (T := ⟨S1048576x48, .i32⟩) main_call3_v2) g : HloOp τ sig (Elt F)) = unary main_call3_c_0 main_call3_v2 g := rfl
theorem e_56 (g : (⟨S1048576x48, .i32⟩ : BufTy).Contents (Elt F) → (⟨S1048576x48, .i32⟩ : BufTy).Contents (Elt F) → (⟨S1048576x48, .i32⟩ : BufTy).Contents (Elt F)) :
    (TRef.binary (TRef.of (T := ⟨S1048576x48, .i32⟩) main_v11) (TRef.of (T := ⟨S1048576x48, .i32⟩) main_call3_v2) (TRef.of (T := ⟨S1048576x48, .i32⟩) main_call3_v3) g : HloOp τ sig (Elt F)) = binary main_v11 main_call3_v2 main_call3_v3 g := rfl
theorem e_57 (g : (⟨S1048576x48, .i1⟩ : BufTy).Contents (Elt F) → (⟨S1048576x48, .i32⟩ : BufTy).Contents (Elt F) → (⟨S1048576x48, .i32⟩ : BufTy).Contents (Elt F) → (⟨S1048576x48, .i32⟩ : BufTy).Contents (Elt F)) :
    (TRef.ternary (TRef.of (T := ⟨S1048576x48, .i1⟩) main_call3_v1) (TRef.of (T := ⟨S1048576x48, .i32⟩) main_call3_v3) (TRef.of (T := ⟨S1048576x48, .i32⟩) main_v11) (TRef.of (T := ⟨S1048576x48, .i32⟩) main_call3_v4) g : HloOp τ sig (Elt F)) = ternary main_call3_v1 main_call3_v3 main_v11 main_call3_v4 g := rfl
theorem e_58 :
    (TRef.reshape (TRef.of (T := ⟨S1048576x48, .i32⟩) main_call3_v4) (TRef.of (T := ⟨S1048576x48x1, .i32⟩) main_call3_v5) rfl shapeCasts_S1048576x48_S1048576x48x1 : HloOp τ sig (Elt F)) = reshape main_call3_v4 main_call3_v5 rfl shapeCasts_S1048576x48_S1048576x48x1 := rfl
theorem e_59 (g : (⟨S1, .i32⟩ : BufTy).Contents (Elt F)) :
    (TRef.nullary (TRef.of (T := ⟨S1, .i32⟩) main_call3_c_1) g : HloOp τ sig (Elt F)) = nullary main_call3_c_1 g := rfl
theorem e_60 (g : (⟨S_, .i32⟩ : BufTy).Contents (Elt F)) :
    (TRef.nullary (TRef.of (T := ⟨S_, .i32⟩) main_call3_c_2) g : HloOp τ sig (Elt F)) = nullary main_call3_c_2 g := rfl
theorem e_61 (g : (⟨S_, .i32⟩ : BufTy).Contents (Elt F) → (⟨S1048576x48x1, .i32⟩ : BufTy).Contents (Elt F)) :
    (TRef.unary (TRef.of (T := ⟨S_, .i32⟩) main_call3_c_2) (TRef.of (T := ⟨S1048576x48x1, .i32⟩) main_call3_v6) g : HloOp τ sig (Elt F)) = unary main_call3_c_2 main_call3_v6 g := rfl
theorem e_62 (g : (⟨S1048576x48x1, .i32⟩ : BufTy).Contents (Elt F) → (⟨S1048576x48x1, .i32⟩ : BufTy).Contents (Elt F) → (⟨S1048576x48x1, .i1⟩ : BufTy).Contents (Elt F)) :
    (TRef.binary (TRef.of (T := ⟨S1048576x48x1, .i32⟩) main_call3_v5) (TRef.of (T := ⟨S1048576x48x1, .i32⟩) main_call3_v6) (TRef.of (T := ⟨S1048576x48x1, .i1⟩) main_call3_v7) g : HloOp τ sig (Elt F)) = binary main_call3_v5 main_call3_v6 main_call3_v7 g := rfl
theorem e_63 (g : (⟨S1, .i32⟩ : BufTy).Contents (Elt F) → (⟨S1x1x1, .i32⟩ : BufTy).Contents (Elt F)) :
    (TRef.unary (TRef.of (T := ⟨S1, .i32⟩) main_call3_c_1) (TRef.of (T := ⟨S1x1x1, .i32⟩) main_call3_v8) g : HloOp τ sig (Elt F)) = unary main_call3_c_1 main_call3_v8 g := rfl
theorem e_64 (g : (⟨S1x1x1, .i32⟩ : BufTy).Contents (Elt F) → (⟨S1048576x48x1, .i32⟩ : BufTy).Contents (Elt F)) :
    (TRef.unary (TRef.of (T := ⟨S1x1x1, .i32⟩) main_call3_v8) (TRef.of (T := ⟨S1048576x48x1, .i32⟩) main_call3_v9) g : HloOp τ sig (Elt F)) = unary main_call3_v8 main_call3_v9 g := rfl
theorem e_65 (g : (⟨S1048576x48x1, .i32⟩ : BufTy).Contents (Elt F) → (⟨S1048576x48x1, .i32⟩ : BufTy).Contents (Elt F) → (⟨S1048576x48x1, .i1⟩ : BufTy).Contents (Elt F)) :
    (TRef.binary (TRef.of (T := ⟨S1048576x48x1, .i32⟩) main_call3_v5) (TRef.of (T := ⟨S1048576x48x1, .i32⟩) main_call3_v9) (TRef.of (T := ⟨S1048576x48x1, .i1⟩) main_call3_v10) g : HloOp τ sig (Elt F)) = binary main_call3_v5 main_call3_v9 main_call3_v10 g := rfl
theorem e_66 (g : (⟨S1048576x48x1, .i1⟩ : BufTy).Contents (Elt F) → (⟨S1048576x48x1, .i1⟩ : BufTy).Contents (Elt F) → (⟨S1048576x48x1, .i1⟩ : BufTy).Contents (Elt F)) :
    (TRef.binary (TRef.of (T := ⟨S1048576x48x1, .i1⟩) main_call3_v7) (TRef.of (T := ⟨S1048576x48x1, .i1⟩) main_call3_v10) (TRef.of (T := ⟨S1048576x48x1, .i1⟩) main_call3_v11) g : HloOp τ sig (Elt F)) = binary main_call3_v7 main_call3_v10 main_call3_v11 g := rfl
theorem e_67 (g : (⟨S_, .i1⟩ : BufTy).Contents (Elt F)) :
    (TRef.nullary (TRef.of (T := ⟨S_, .i1⟩) main_call3_c_3) g : HloOp τ sig (Elt F)) = nullary main_call3_c_3 g := rfl
theorem e_68 (g : (⟨S1048576x48x1, .i1⟩ : BufTy).Contents (Elt F) → (⟨S_, .i1⟩ : BufTy).Contents (Elt F) → (⟨S1048576x48, .i1⟩ : BufTy).Contents (Elt F)) :
    (TRef.binary (TRef.of (T := ⟨S1048576x48x1, .i1⟩) main_call3_v11) (TRef.of (T := ⟨S_, .i1⟩) main_call3_c_3) (TRef.of (T := ⟨S1048576x48, .i1⟩) main_call3_v12) g : HloOp τ sig (Elt F)) = binary main_call3_v11 main_call3_c_3 main_call3_v12 g := rfl
theorem e_69 (g : (⟨S91x48, .f32⟩ : BufTy).Contents (Elt F) → (⟨S1048576x48x1, .i32⟩ : BufTy).Contents (Elt F) → (⟨S1048576x48, .f32⟩ : BufTy).Contents (Elt F)) :
    (TRef.binary (TRef.of (T := ⟨S91x48, .f32⟩) main_arg1) (TRef.of (T := ⟨S1048576x48x1, .i32⟩) main_call3_v5) (TRef.of (T := ⟨S1048576x48, .f32⟩) main_call3_v13) g : HloOp τ sig (Elt F)) = binary main_arg1 main_call3_v5 main_call3_v13 g := rfl
theorem e_70 (g : (⟨S_, .f32⟩ : BufTy).Contents (Elt F)) :
    (TRef.nullary (TRef.of (T := ⟨S_, .f32⟩) main_call3_cst) g : HloOp τ sig (Elt F)) = nullary main_call3_cst g := rfl
theorem e_71 (g : (⟨S_, .f32⟩ : BufTy).Contents (Elt F) → (⟨S1048576x48, .f32⟩ : BufTy).Contents (Elt F)) :
    (TRef.unary (TRef.of (T := ⟨S_, .f32⟩) main_call3_cst) (TRef.of (T := ⟨S1048576x48, .f32⟩) main_call3_v14) g : HloOp τ sig (Elt F)) = unary main_call3_cst main_call3_v14 g := rfl
theorem e_72 (g : (⟨S1048576x48, .i1⟩ : BufTy).Contents (Elt F) → (⟨S1048576x48, .f32⟩ : BufTy).Contents (Elt F) → (⟨S1048576x48, .f32⟩ : BufTy).Contents (Elt F) → (⟨S1048576x48, .f32⟩ : BufTy).Contents (Elt F)) :
    (TRef.ternary (TRef.of (T := ⟨S1048576x48, .i1⟩) main_call3_v12) (TRef.of (T := ⟨S1048576x48, .f32⟩) main_call3_v13) (TRef.of (T := ⟨S1048576x48, .f32⟩) main_call3_v14) (TRef.of (T := ⟨S1048576x48, .f32⟩) main_v13) g : HloOp τ sig (Elt F)) = ternary main_call3_v12 main_call3_v13 main_call3_v14 main_v13 g := rfl

theorem ops_eq : (ops : List (HloOp τ sig (Elt F))) = opsP := by
  simp only [ops, opsP, e_9, e_10, e_11, e_12, e_13, e_14, e_20, e_21, e_22, e_23, e_24, e_25, e_29, e_30, e_31, e_32, e_33, e_34, e_35, e_36, e_37, e_38, e_39, e_40, e_41, e_42, e_43, e_44, e_45, e_46, e_47, e_48, e_49, e_50, e_51, e_52, e_53, e_54, e_55, e_56, e_57, e_58, e_59, e_60, e_61, e_62, e_63, e_64, e_65, e_66, e_67, e_68, e_69, e_70, e_71, e_72]

/-- The first 29 operations: up to the two knot-number arrays. -/
abbrev opsA : List (HloOp τ sig (Elt F)) :=
  [ reshape main_arg0 main_v0 rfl shapeCasts_S16x256x256x48_S1048576x48,
    nullary main_cst (constant S_ .f32 0xC0400000#32),
    unary main_cst main_v1 (broadcastInDim S1048576x48 ![] bcast_S_S1048576x48 : (⟨S_, .f32⟩ : BufTy).Contents (Elt F) → (⟨S1048576x48, .f32⟩ : BufTy).Contents (Elt F)),
    binary main_v0 main_v1 main_v2 (subf : (⟨S1048576x48, .f32⟩ : BufTy).Contents (Elt F) → (⟨S1048576x48, .f32⟩ : BufTy).Contents (Elt F) → (⟨S1048576x48, .f32⟩ : BufTy).Contents (Elt F)),
    nullary main_cst_0 (constant S_ .f32 0x3D888889#32),
    unary main_cst_0 main_v3 (broadcastInDim S1048576x48 ![] bcast_S_S1048576x48 : (⟨S_, .f32⟩ : BufTy).Contents (Elt F) → (⟨S1048576x48, .f32⟩ : BufTy).Contents (Elt F)),
    binary main_v2 main_v3 main_v4 (Host.divf : (⟨S1048576x48, .f32⟩ : BufTy).Contents (Elt F) → (⟨S1048576x48, .f32⟩ : BufTy).Contents (Elt F) → (⟨S1048576x48, .f32⟩ : BufTy).Contents (Elt F)),
    nullary main_cst_1 (constant S_ .f32 0x3727C5AC#32),
    nullary main_cst_2 (constant S_ .f32 0x42B3FFFF#32),
    unary main_cst_1 main_call0_v0 (id : (⟨S_, .f32⟩ : BufTy).Contents (Elt F) → (⟨S_, .f32⟩ : BufTy).Contents (Elt F)),
    unary main_call0_v0 main_call0_v1 ((broadcastInDim S1048576x48 ![] bcast_S_S1048576x48) : (⟨S_, .f32⟩ : BufTy).Contents (Elt F) → (⟨S1048576x48, .f32⟩ : BufTy).Contents (Elt F)),
    binary main_call0_v1 main_v4 main_call0_v2 (maximumf : (⟨S1048576x48, .f32⟩ : BufTy).Contents (Elt F) → (⟨S1048576x48, .f32⟩ : BufTy).Contents (Elt F) → (⟨S1048576x48, .f32⟩ : BufTy).Contents (Elt F)),
    unary main_cst_2 main_call0_v3 (id : (⟨S_, .f32⟩ : BufTy).Contents (Elt F) → (⟨S_, .f32⟩ : BufTy).Contents (Elt F)),
    unary main_call0_v3 main_call0_v4 ((broadcastInDim S1048576x48 ![] bcast_S_S1048576x48) : (⟨S_, .f32⟩ : BufTy).Contents (Elt F) → (⟨S1048576x48, .f32⟩ : BufTy).Contents (Elt F)),
    binary main_call0_v4 main_call0_v2 main_v5 (minimumf : (⟨S1048576x48, .f32⟩ : BufTy).Contents (Elt F) → (⟨S1048576x48, .f32⟩ : BufTy).Contents (Elt F) → (⟨S1048576x48, .f32⟩ : BufTy).Contents (Elt F)),
    unary main_v5 main_v6 (Host.floor : (⟨S1048576x48, .f32⟩ : BufTy).Contents (Elt F) → (⟨S1048576x48, .f32⟩ : BufTy).Contents (Elt F)),
    binary main_v5 main_v6 main_v7 (subf : (⟨S1048576x48, .f32⟩ : BufTy).Contents (Elt F) → (⟨S1048576x48, .f32⟩ : BufTy).Contents (Elt F) → (⟨S1048576x48, .f32⟩ : BufTy).Contents (Elt F)),
    unary main_v6 main_v8 (fptosi 32 : (⟨S1048576x48, .f32⟩ : BufTy).Contents (Elt F) → (⟨S1048576x48, .i32⟩ : BufTy).Contents (Elt F)),
    nullary main_c (constantI S_ 32 0#32),
    nullary main_c_3 (constantI S_ 32 89#32),
    unary main_c main_call1_v0 (id : (⟨S_, .i32⟩ : BufTy).Contents (Elt F) → (⟨S_, .i32⟩ : BufTy).Contents (Elt F)),
    unary main_call1_v0 main_call1_v1 ((broadcastInDim S1048576x48 ![] bcast_S_S1048576x48) : (⟨S_, .i32⟩ : BufTy).Contents (Elt F) → (⟨S1048576x48, .i32⟩ : BufTy).Contents (Elt F)),
    binary main_call1_v1 main_v8 main_call1_v2 (maxsi : (⟨S1048576x48, .i32⟩ : BufTy).Contents (Elt F) → (⟨S1048576x48, .i32⟩ : BufTy).Contents (Elt F) → (⟨S1048576x48, .i32⟩ : BufTy).Contents (Elt F)),
    unary main_c_3 main_call1_v3 (id : (⟨S_, .i32⟩ : BufTy).Contents (Elt F) → (⟨S_, .i32⟩ : BufTy).Contents (Elt F)),
    unary main_call1_v3 main_call1_v4 ((broadcastInDim S1048576x48 ![] bcast_S_S1048576x48) : (⟨S_, .i32⟩ : BufTy).Contents (Elt F) → (⟨S1048576x48, .i32⟩ : BufTy).Contents (Elt F)),
    binary main_call1_v4 main_call1_v2 main_v9 (minsi : (⟨S1048576x48, .i32⟩ : BufTy).Contents (Elt F) → (⟨S1048576x48, .i32⟩ : BufTy).Contents (Elt F) → (⟨S1048576x48, .i32⟩ : BufTy).Contents (Elt F)),
    nullary main_c_4 (constantI S_ 32 1#32),
    unary main_c_4 main_v10 (broadcastInDim S1048576x48 ![] bcast_S_S1048576x48 : (⟨S_, .i32⟩ : BufTy).Contents (Elt F) → (⟨S1048576x48, .i32⟩ : BufTy).Contents (Elt F)),
    binary main_v9 main_v10 main_v11 (addi : (⟨S1048576x48, .i32⟩ : BufTy).Contents (Elt F) → (⟨S1048576x48, .i32⟩ : BufTy).Contents (Elt F) → (⟨S1048576x48, .i32⟩ : BufTy).Contents (Elt F)) ]

/-- The other 51: the two look-ups and the combination. -/
abbrev opsB : List (HloOp τ sig (Elt F)) :=
  [ nullary main_call2_c ((constantI S_ 32 0#32) : (⟨S_, .i32⟩ : BufTy).Contents (Elt F)),
    unary main_call2_c main_call2_v0 ((broadcastInDim S1048576x48 ![] bcast_S_S1048576x48) : (⟨S_, .i32⟩ : BufTy).Contents (Elt F) → (⟨S1048576x48, .i32⟩ : BufTy).Contents (Elt F)),
    binary main_v9 main_call2_v0 main_call2_v1 ((cmpi .slt) : (⟨S1048576x48, .i32⟩ : BufTy).Contents (Elt F) → (⟨S1048576x48, .i32⟩ : BufTy).Contents (Elt F) → (⟨S1048576x48, .i1⟩ : BufTy).Contents (Elt F)),
    nullary main_call2_c_0 ((constantI S_ 32 91#32) : (⟨S_, .i32⟩ : BufTy).Contents (Elt F)),
    unary main_call2_c_0 main_call2_v2 ((broadcastInDim S1048576x48 ![] bcast_S_S1048576x48) : (⟨S_, .i32⟩ : BufTy).Contents (Elt F) → (⟨S1048576x48, .i32⟩ : BufTy).Contents (Elt F)),
    binary main_v9 main_call2_v2 main_call2_v3 (addi : (⟨S1048576x48, .i32⟩ : BufTy).Contents (Elt F) → (⟨S1048576x48, .i32⟩ : BufTy).Contents (Elt F) → (⟨S1048576x48, .i32⟩ : BufTy).Contents (Elt F)),
    ternary main_call2_v1 main_call2_v3 main_v9 main_call2_v4 (select : (⟨S1048576x48, .i1⟩ : BufTy).Contents (Elt F) → (⟨S1048576x48, .i32⟩ : BufTy).Contents (Elt F) → (⟨S1048576x48, .i32⟩ : BufTy).Contents (Elt F) → (⟨S1048576x48, .i32⟩ : BufTy).Contents (Elt F)),
    reshape main_call2_v4 main_call2_v5 rfl shapeCasts_S1048576x48_S1048576x48x1,
    nullary main_call2_c_1 ((constantI S1 32 90#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S1048576x48x1 ![] bcast_S_S1048576x48x1) : (⟨S_, .i32⟩ : BufTy).Contents (Elt F) → (⟨S1048576x48x1, .i32⟩ : BufTy).Contents (Elt F)),
    binary main_call2_v5 main_call2_v6 main_call2_v7 ((cmpi .sge) : (⟨S1048576x48x1, .i32⟩ : BufTy).Contents (Elt F) → (⟨S1048576x48x1, .i32⟩ : BufTy).Contents (Elt F) → (⟨S1048576x48x1, .i1⟩ : BufTy).Contents (Elt F)),
    unary main_call2_c_1 main_call2_v8 ((broadcastInDim S1x1x1 ![2] bcast_S1_S1x1x1_2) : (⟨S1, .i32⟩ : BufTy).Contents (Elt F) → (⟨S1x1x1, .i32⟩ : BufTy).Contents (Elt F)),
    unary main_call2_v8 main_call2_v9 ((broadcastInDim S1048576x48x1 ![0, 1, 2] bcast_S1x1x1_S1048576x48x1_0_1_2) : (⟨S1x1x1, .i32⟩ : BufTy).Contents (Elt F) → (⟨S1048576x48x1, .i32⟩ : BufTy).Contents (Elt F)),
    binary main_call2_v5 main_call2_v9 main_call2_v10 ((cmpi .sle) : (⟨S1048576x48x1, .i32⟩ : BufTy).Contents (Elt F) → (⟨S1048576x48x1, .i32⟩ : BufTy).Contents (Elt F) → (⟨S1048576x48x1, .i1⟩ : BufTy).Contents (Elt F)),
    binary main_call2_v7 main_call2_v10 main_call2_v11 (andi : (⟨S1048576x48x1, .i1⟩ : BufTy).Contents (Elt F) → (⟨S1048576x48x1, .i1⟩ : BufTy).Contents (Elt F) → (⟨S1048576x48x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S1048576x48x1_S1048576x48_d2 h_S_) : (⟨S1048576x48x1, .i1⟩ : BufTy).Contents (Elt F) → (⟨S_, .i1⟩ : BufTy).Contents (Elt F) → (⟨S1048576x48, .i1⟩ : BufTy).Contents (Elt F)),
    binary main_arg1 main_call2_v5 main_call2_v13 ((fun x i => Host.gather gather_S91x48_S1048576x48x1_S1048576x48_n_0_1_1_0_2_11 x i) : (⟨S91x48, .f32⟩ : BufTy).Contents (Elt F) → (⟨S1048576x48x1, .i32⟩ : BufTy).Contents (Elt F) → (⟨S1048576x48, .f32⟩ : BufTy).Contents (Elt F)),
    nullary main_call2_cst ((constant S_ .f32 0x7FC00000#32) : (⟨S_, .f32⟩ : BufTy).Contents (Elt F)),
    unary main_call2_cst main_call2_v14 ((broadcastInDim S1048576x48 ![] bcast_S_S1048576x48) : (⟨S_, .f32⟩ : BufTy).Contents (Elt F) → (⟨S1048576x48, .f32⟩ : BufTy).Contents (Elt F)),
    ternary main_call2_v12 main_call2_v13 main_call2_v14 main_v12 (select : (⟨S1048576x48, .i1⟩ : BufTy).Contents (Elt F) → (⟨S1048576x48, .f32⟩ : BufTy).Contents (Elt F) → (⟨S1048576x48, .f32⟩ : BufTy).Contents (Elt F) → (⟨S1048576x48, .f32⟩ : BufTy).Contents (Elt F)),
    nullary main_call3_c ((constantI S_ 32 0#32) : (⟨S_, .i32⟩ : BufTy).Contents (Elt F)),
    unary main_call3_c main_call3_v0 ((broadcastInDim S1048576x48 ![] bcast_S_S1048576x48) : (⟨S_, .i32⟩ : BufTy).Contents (Elt F) → (⟨S1048576x48, .i32⟩ : BufTy).Contents (Elt F)),
    binary main_v11 main_call3_v0 main_call3_v1 ((cmpi .slt) : (⟨S1048576x48, .i32⟩ : BufTy).Contents (Elt F) → (⟨S1048576x48, .i32⟩ : BufTy).Contents (Elt F) → (⟨S1048576x48, .i1⟩ : BufTy).Contents (Elt F)),
    nullary main_call3_c_0 ((constantI S_ 32 91#32) : (⟨S_, .i32⟩ : BufTy).Contents (Elt F)),
    unary main_call3_c_0 main_call3_v2 ((broadcastInDim S1048576x48 ![] bcast_S_S1048576x48) : (⟨S_, .i32⟩ : BufTy).Contents (Elt F) → (⟨S1048576x48, .i32⟩ : BufTy).Contents (Elt F)),
    binary main_v11 main_call3_v2 main_call3_v3 (addi : (⟨S1048576x48, .i32⟩ : BufTy).Contents (Elt F) → (⟨S1048576x48, .i32⟩ : BufTy).Contents (Elt F) → (⟨S1048576x48, .i32⟩ : BufTy).Contents (Elt F)),
    ternary main_call3_v1 main_call3_v3 main_v11 main_call3_v4 (select : (⟨S1048576x48, .i1⟩ : BufTy).Contents (Elt F) → (⟨S1048576x48, .i32⟩ : BufTy).Contents (Elt F) → (⟨S1048576x48, .i32⟩ : BufTy).Contents (Elt F) → (⟨S1048576x48, .i32⟩ : BufTy).Contents (Elt F)),
    reshape main_call3_v4 main_call3_v5 rfl shapeCasts_S1048576x48_S1048576x48x1,
    nullary main_call3_c_1 ((constantI S1 32 90#32) : (⟨S1, .i32⟩ : BufTy).Contents (Elt F)),
    nullary main_call3_c_2 ((constantI S_ 32 0#32) : (⟨S_, .i32⟩ : BufTy).Contents (Elt F)),
    unary main_call3_c_2 main_call3_v6 ((broadcastInDim S1048576x48x1 ![] bcast_S_S1048576x48x1) : (⟨S_, .i32⟩ : BufTy).Contents (Elt F) → (⟨S1048576x48x1, .i32⟩ : BufTy).Contents (Elt F)),
    binary main_call3_v5 main_call3_v6 main_call3_v7 ((cmpi .sge) : (⟨S1048576x48x1, .i32⟩ : BufTy).Contents (Elt F) → (⟨S1048576x48x1, .i32⟩ : BufTy).Contents (Elt F) → (⟨S1048576x48x1, .i1⟩ : BufTy).Contents (Elt F)),
    unary main_call3_c_1 main_call3_v8 ((broadcastInDim S1x1x1 ![2] bcast_S1_S1x1x1_2) : (⟨S1, .i32⟩ : BufTy).Contents (Elt F) → (⟨S1x1x1, .i32⟩ : BufTy).Contents (Elt F)),
    unary main_call3_v8 main_call3_v9 ((broadcastInDim S1048576x48x1 ![0, 1, 2] bcast_S1x1x1_S1048576x48x1_0_1_2) : (⟨S1x1x1, .i32⟩ : BufTy).Contents (Elt F) → (⟨S1048576x48x1, .i32⟩ : BufTy).Contents (Elt F)),
    binary main_call3_v5 main_call3_v9 main_call3_v10 ((cmpi .sle) : (⟨S1048576x48x1, .i32⟩ : BufTy).Contents (Elt F) → (⟨S1048576x48x1, .i32⟩ : BufTy).Contents (Elt F) → (⟨S1048576x48x1, .i1⟩ : BufTy).Contents (Elt F)),
    binary main_call3_v7 main_call3_v10 main_call3_v11 (andi : (⟨S1048576x48x1, .i1⟩ : BufTy).Contents (Elt F) → (⟨S1048576x48x1, .i1⟩ : BufTy).Contents (Elt F) → (⟨S1048576x48x1, .i1⟩ : BufTy).Contents (Elt F)),
    nullary main_call3_c_3 ((constantI S_ 1 1#1) : (⟨S_, .i1⟩ : BufTy).Contents (Elt F)),
    binary main_call3_v11 main_call3_c_3 main_call3_v12 ((fun x v => Host.reduce IntOp.andi x v reducesTo_S1048576x48x1_S1048576x48_d2 h_S_) : (⟨S1048576x48x1, .i1⟩ : BufTy).Contents (Elt F) → (⟨S_, .i1⟩ : BufTy).Contents (Elt F) → (⟨S1048576x48, .i1⟩ : BufTy).Contents (Elt F)),
    binary main_arg1 main_call3_v5 main_call3_v13 ((fun x i => Host.gather gather_S91x48_S1048576x48x1_S1048576x48_n_0_1_1_0_2_11 x i) : (⟨S91x48, .f32⟩ : BufTy).Contents (Elt F) → (⟨S1048576x48x1, .i32⟩ : BufTy).Contents (Elt F) → (⟨S1048576x48, .f32⟩ : BufTy).Contents (Elt F)),
    nullary main_call3_cst ((constant S_ .f32 0x7FC00000#32) : (⟨S_, .f32⟩ : BufTy).Contents (Elt F)),
    unary main_call3_cst main_call3_v14 ((broadcastInDim S1048576x48 ![] bcast_S_S1048576x48) : (⟨S_, .f32⟩ : BufTy).Contents (Elt F) → (⟨S1048576x48, .f32⟩ : BufTy).Contents (Elt F)),
    ternary main_call3_v12 main_call3_v13 main_call3_v14 main_v13 (select : (⟨S1048576x48, .i1⟩ : BufTy).Contents (Elt F) → (⟨S1048576x48, .f32⟩ : BufTy).Contents (Elt F) → (⟨S1048576x48, .f32⟩ : BufTy).Contents (Elt F) → (⟨S1048576x48, .f32⟩ : BufTy).Contents (Elt F)),
    nullary main_cst_5 (constant S_ .f32 0x3F800000#32),
    unary main_cst_5 main_v14 (broadcastInDim S1048576x48 ![] bcast_S_S1048576x48 : (⟨S_, .f32⟩ : BufTy).Contents (Elt F) → (⟨S1048576x48, .f32⟩ : BufTy).Contents (Elt F)),
    binary main_v14 main_v7 main_v15 (subf : (⟨S1048576x48, .f32⟩ : BufTy).Contents (Elt F) → (⟨S1048576x48, .f32⟩ : BufTy).Contents (Elt F) → (⟨S1048576x48, .f32⟩ : BufTy).Contents (Elt F)),
    binary main_v12 main_v15 main_v16 (mulf : (⟨S1048576x48, .f32⟩ : BufTy).Contents (Elt F) → (⟨S1048576x48, .f32⟩ : BufTy).Contents (Elt F) → (⟨S1048576x48, .f32⟩ : BufTy).Contents (Elt F)),
    binary main_v7 main_v13 main_v17 (mulf : (⟨S1048576x48, .f32⟩ : BufTy).Contents (Elt F) → (⟨S1048576x48, .f32⟩ : BufTy).Contents (Elt F) → (⟨S1048576x48, .f32⟩ : BufTy).Contents (Elt F)),
    binary main_v16 main_v17 main_v18 (addf : (⟨S1048576x48, .f32⟩ : BufTy).Contents (Elt F) → (⟨S1048576x48, .f32⟩ : BufTy).Contents (Elt F) → (⟨S1048576x48, .f32⟩ : BufTy).Contents (Elt F)),
    reshape main_v18 main_v19 rfl shapeCasts_S1048576x48_S16x256x256x48 ]

theorem opsP_split : (opsP : List (HloOp τ sig (Elt F))) = opsA ++ opsB := rfl

/-- The fold over a list laid end to end is the fold over its second part after the fold over its first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- One look-up `take_along_axis(Y, idx, axis=0)`: a negative index wrapped by 91, the in-bounds mask, the gather, the
    select against the out-of-bounds fill. -/
def take (Y : (⟨S91x48, .f32⟩ : BufTy).Contents (Elt F)) (idx : (⟨S1048576x48, .i32⟩ : BufTy).Contents (Elt F)) :
    (⟨S1048576x48, .f32⟩ : BufTy).Contents (Elt F) :=
  let w0 : (⟨S1048576x48, .i32⟩ : BufTy).Contents (Elt F) := broadcastInDim S1048576x48 ![] bcast_S_S1048576x48 (constantI S_ 32 0#32)
  let w1 : (⟨S1048576x48, .i1⟩ : BufTy).Contents (Elt F) := cmpi .slt idx w0
  let w2 : (⟨S1048576x48, .i32⟩ : BufTy).Contents (Elt F) := broadcastInDim S1048576x48 ![] bcast_S_S1048576x48 (constantI S_ 32 91#32)
  let w3 : (⟨S1048576x48, .i32⟩ : BufTy).Contents (Elt F) := addi idx w2
  let w4 : (⟨S1048576x48, .i32⟩ : BufTy).Contents (Elt F) := select w1 w3 idx
  let w5 : (⟨S1048576x48x1, .i32⟩ : BufTy).Contents (Elt F) := shapeCast _ w4 shapeCasts_S1048576x48_S1048576x48x1
  let w6 : (⟨S1048576x48x1, .i32⟩ : BufTy).Contents (Elt F) := broadcastInDim S1048576x48x1 ![] bcast_S_S1048576x48x1 (constantI S_ 32 0#32)
  let w7 : (⟨S1048576x48x1, .i1⟩ : BufTy).Contents (Elt F) := cmpi .sge w5 w6
  let w8 : (⟨S1x1x1, .i32⟩ : BufTy).Contents (Elt F) := broadcastInDim S1x1x1 ![2] bcast_S1_S1x1x1_2 (constantI S1 32 90#32)
  let w9 : (⟨S1048576x48x1, .i32⟩ : BufTy).Contents (Elt F) := broadcastInDim S1048576x48x1 ![0, 1, 2] bcast_S1x1x1_S1048576x48x1_0_1_2 w8
  let w10 : (⟨S1048576x48x1, .i1⟩ : BufTy).Contents (Elt F) := cmpi .sle w5 w9
  let w11 : (⟨S1048576x48x1, .i1⟩ : BufTy).Contents (Elt F) := andi w7 w10
  let w12 : (⟨S1048576x48, .i1⟩ : BufTy).Contents (Elt F) := Host.reduce IntOp.andi w11 (constantI S_ 1 1#1) reducesTo_S1048576x48x1_S1048576x48_d2 h_S_
  let w13 : (⟨S1048576x48, .f32⟩ : BufTy).Contents (Elt F) := Host.gather gather_S91x48_S1048576x48x1_S1048576x48_n_0_1_1_0_2_11 Y w5
  let w14 : (⟨S1048576x48, .f32⟩ : BufTy).Contents (Elt F) := broadcastInDim S1048576x48 ![] bcast_S_S1048576x48 (constant S_ .f32 0x7FC00000#32)
  select w12 w13 w14

/-- The last 51 operations as one function of the knot table, the fractional part and the two knot-number arrays. -/
def finish (Y : (⟨S91x48, .f32⟩ : BufTy).Contents (Elt F)) (fr : (⟨S1048576x48, .f32⟩ : BufTy).Contents (Elt F))
    (i0 i1 : (⟨S1048576x48, .i32⟩ : BufTy).Contents (Elt F)) : (⟨S16x256x256x48, .f32⟩ : BufTy).Contents (Elt F) :=
  shapeCast _
    (addf (mulf (take Y i0) (subf (broadcastInDim S1048576x48 ![] bcast_S_S1048576x48 (constant S_ .f32 0x3F800000#32)) fr))
      (mulf fr (take Y i1)))
    shapeCasts_S1048576x48_S16x256x256x48

/-- The reference's last stage is `finish` of its earlier stages. -/
theorem val_main_v19_finish (x0 : (⟨S16x256x256x48, .f32⟩ : BufTy).Contents (Elt F)) (x1 : (⟨S91x48, .f32⟩ : BufTy).Contents (Elt F)) :
    ReadP.val_main_v19 (F := F) x0 x1
      = finish x1 (ReadP.val_main_v7 (F := F) x0) (ReadP.val_main_v9 (F := F) x0) (ReadP.val_main_v11 (F := F) x0) := rfl

section Stretches

variable (V : Valuation τ sig (Elt F))

/-- After the first stretch: the fractional part … -/
theorem a_v7 : after opsA V (Proc.devRef .tc main_v7) = ReadP.val_main_v7 (F := F) (V (Proc.devRef .tc main_arg0)) := by
  after_results_simp; rfl
/-- … the lower knot numbers … -/
theorem a_v9 : after opsA V (Proc.devRef .tc main_v9) = ReadP.val_main_v9 (F := F) (V (Proc.devRef .tc main_arg0)) := by
  after_results_simp; rfl
/-- … the upper knot numbers … -/
theorem a_v11 : after opsA V (Proc.devRef .tc main_v11) = ReadP.val_main_v11 (F := F) (V (Proc.devRef .tc main_arg0)) := by
  after_results_simp; rfl
/-- … and the knot table untouched. -/
theorem a_arg1 : after opsA V (Proc.devRef .tc main_arg1) = V (Proc.devRef .tc main_arg1) := by
  after_results_simp

/-- The second stretch, from any contents. -/
theorem b_v19 : after opsB V (Proc.devRef .tc main_v19)
    = finish (V (Proc.devRef .tc main_arg1)) (V (Proc.devRef .tc main_v7)) (V (Proc.devRef .tc main_v9)) (V (Proc.devRef .tc main_v11)) := by
  after_results_simp; rfl

end Stretches

/-- The whole fold at the result buffer. -/
theorem after_v19 (V : Valuation τ sig (Elt F)) :
    after ops V (Proc.devRef .tc main_v19)
      = ReadP.val_main_v19 (F := F) (V (Proc.devRef .tc main_arg0)) (V (Proc.devRef .tc main_arg1)) := by
  rw [ops_eq, opsP_split, after_append, b_v19, a_v7, a_v9, a_v11, a_arg1, val_main_v19_finish]

set_option maxRecDepth 8192 in
set_option maxHeartbeats 32000000 in
/-- On every device, for any float values, from any memory with zero counters: every weakly fair execution of
    @main terminates with the result at the reference's last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
        = ReadP.val_main_v19 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v19).trans ((after_v19 _).trans rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.ValueP

end
-- ==== Proof.lean ====
/-
  The certificate of a piecewise-linear interpolation kernel against its jnp reference.

  Both programs flatten the input to [1048576, 48], move every element `x` to knot coordinates
  `pos x = min c₈₉ (max cε ((x − c₋₃) / c_w))`, split that into its integer part and the remainder `frac x`, clamp the
  integer part to a knot number 0 … 89, and return `Y(knot, ch) · (1 − frac) + frac · Y(knot + 1, ch)` of the element's
  channel `ch` of the 91-row knot table `Y` (Proof/Spec.lean: `Spline.val`), reshaped back. The reference reads the two
  rows with two gathers (Proof/RefSide.lean: the gather's clamped start is the row, the in-bounds mask is all ones);
  the kernel, 8192 rows per grid point and 256 rows per loop trip, adds up over all 91 rows `k` the row times
  `[knot = k] · (1 − frac) + [knot = k − 1] · frac`, a sum whose only non-zero summands are the same two products
  (Proof/PayValue.lean; on the extended reals `0 · y = 0` and `x + 0 = x` hold without any finiteness). The slabs the
  trips store cover a grid point's block (Proof/KernelBlock.lean), the blocks cover the array, and the host reshape after
  the region gives the result (Proof/KernelArray.lean). Both results are therefore one function of the arguments, at
  every input, and the precondition is not used. The kernel's idealization rewrote nothing, so `preserves` is trivial;
  the two kernel frames are the generated ones and the reference's frame is its run (Proof/RefRun.lean) with the result
  dropped.
-/
import proofs.«148370_j48223892799740_2_alg».proof.Defs
import proofs.«148370_j48223892799740_2_alg».proof.Proof.Gen.Kernel
import proofs.«148370_j48223892799740_2_alg».proof.Proof.Gen.Kernel.Skeleton
import proofs.«148370_j48223892799740_2_alg».proof.Proof.Gen.Kernel.Loops
import proofs.«148370_j48223892799740_2_alg».proof.Proof.Gen.Kernel.Launch
import proofs.«148370_j48223892799740_2_alg».proof.Proof.Gen.Kernel.Points
import proofs.«148370_j48223892799740_2_alg».proof.Proof.Gen.Kernel.Frame
import proofs.«148370_j48223892799740_2_alg».proof.Proof.Gen.KernelIdeal
import proofs.«148370_j48223892799740_2_alg».proof.Proof.Gen.KernelIdeal.Skeleton
import proofs.«148370_j48223892799740_2_alg».proof.Proof.Gen.KernelIdeal.Loops
import proofs.«148370_j48223892799740_2_alg».proof.Proof.Gen.KernelIdeal.Launch
import proofs.«148370_j48223892799740_2_alg».proof.Proof.Gen.KernelIdeal.Points
import proofs.«148370_j48223892799740_2_alg».proof.Proof.Gen.KernelIdeal.Frame
import proofs.«148370_j48223892799740_2_alg».proof.Proof.Gen.ReferenceIdeal
import proofs.«148370_j48223892799740_2_alg».proof.Proof.Gen.Pre_finite_inputs
import proofs.«148370_j48223892799740_2_alg».proof.Proof.KernelArray
import proofs.«148370_j48223892799740_2_alg».proof.Proof.RefResult
import proofs.«148370_j48223892799740_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- The reference's last stage is the kernel's result function of the same arguments: both reshape the first argument
    to [1048576, 48], interpolate it elementwise against the knot table, and reshape back. -/
theorem ref_is_kernel (x0 : (⟨Cert.ReferenceIdeal.S16x256x256x48, .f32⟩ : BufTy).Contents (Elt Ideal))
    (x1 : (⟨Cert.ReferenceIdeal.S91x48, .f32⟩ : BufTy).Contents (Elt Ideal)) :
    Cert.ReferenceIdeal.ReadP.val_main_v19 (F := Ideal) x0 x1
      = shapeCast Cert.KernelIdeal.S16x256x256x48
          (Cert.KernelIdeal.Arr.Garr
            (shapeCast Cert.KernelIdeal.S1048576x48 x0 Cert.KernelIdeal.Facts₀.shapeCasts_S16x256x256x48_S1048576x48) x1)
          Cert.KernelIdeal.Facts₀.shapeCasts_S1048576x48_S16x256x256x48 := by
  unfold Cert.ReferenceIdeal.ReadP.val_main_v19
  rw [Cert.ReferenceIdeal.RefResult.flat_eq]
  rfl

/-- At `Ideal` the kernel's result buffer ends at `Arr.result` of its arguments and the reference's at its last stage
    of arguments that agree: one function. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  exact ref_is_kernel _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
